-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x28672 : Shape := ⟨2, ![4096, 28672]⟩
abbrev S14336x4096 : Shape := ⟨2, ![14336, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x28672 : S_.BroadcastsInDim S4096x28672 (![] : Fin 0 → Fin S4096x28672.rank)
  reducesTo_S4096x28672_S_d0_1 : S4096x28672.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn {F : FTy → Type} [FloatOps F] (main_arg0 : FVec F S512x4096 .f32) (main_arg1 : FVec F S4096x28672 .f32) (main_arg2 : FVec F S14336x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x28672 .f32 := Host.absf main_arg1
  let main_cst_0 : FVec F S_ .f32 := constant S_ .f32 0x7F800000#32
  let main_v5 : FVec F S4096x28672 .f32 := broadcastInDim S4096x28672 ![] bcast_S_S4096x28672 main_cst_0
  let main_v6 : IVec S4096x28672 1 := cmpf .olt main_v4 main_v5
  let main_c_1 : IVec S_ 1 := constantI S_ 1 1#1
  let main_v7 : IVec S_ 1 := (fun x v => Host.reduce IntOp.andi x v reducesTo_S4096x28672_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  main_v13
-- ==== Kernel.lean ====
abbrev S512x4096 : Shape := ⟨2, ![512, 4096]⟩
abbrev S4096x28672 : Shape := ⟨2, ![4096, 28672]⟩
abbrev S14336x4096 : Shape := ⟨2, ![14336, 4096]⟩
abbrev S512x14336 : Shape := ⟨2, ![512, 14336]⟩
abbrev S4096x256 : Shape := ⟨2, ![4096, 256]⟩
abbrev S512x256 : Shape := ⟨2, ![512, 256]⟩
abbrev S256x2048 : Shape := ⟨2, ![256, 2048]⟩
abbrev S512x2048 : Shape := ⟨2, ![512, 2048]⟩

abbrev nBuf : Space → Nat
  | .hbm => 6
  | .vmem => 13
  | .smem => 0
  | _ => 0

abbrev bufTy : (tb : Table) → Fin (tcTables nBuf tb) → BufTy
  | .hbm, ⟨0, _⟩ => ⟨S512x4096, .f32⟩
  | .hbm, ⟨1, _⟩ => ⟨S4096x28672, .f32⟩
  | .hbm, ⟨2, _⟩ => ⟨S14336x4096, .f32⟩
  | .hbm, ⟨3, _⟩ => ⟨S512x4096, .bf16⟩
  | .hbm, ⟨4, _⟩ => ⟨S512x14336, .bf16⟩
  | .hbm, ⟨5, _⟩ => ⟨S512x4096, .f32⟩
  | .local _ .vmem, ⟨0, _⟩ => ⟨S512x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S256x2048, .f32⟩
  | .local _ .vmem, ⟨10, _⟩ => ⟨S256x2048, .f32⟩
  | .local _ .vmem, ⟨11, _⟩ => ⟨S512x2048, .f32⟩
  | .local _ .vmem, ⟨12, _⟩ => ⟨S512x2048, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 56], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x256_S512x256 : S512x256.ShapeCasts S512x256
  inb_S256x2048_S256x2048_0_0 : ∀ a, (![0, 0] : Fin 2 → Nat) a + S256x2048.size a ≤ S256x2048.size a
  h_S256x2048 : 0 < S256x2048.numel
  shapeCasts_S512x2048_S512x2048 : S512x2048.ShapeCasts S512x2048
  dot_S512x4096_S4096x256_S512x256_1_0_0_1_n_n_wf : DotDims.WF S512x4096 S4096x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x28672.size a
  hwx0_1 : ∀ i : grid0.Coords, EltTy.bits .f32 = 32 ∨ (Rect.block (s := S4096x28672) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x28672.size a
  hwx0_2 : ∀ i : grid0.Coords, EltTy.bits .f32 = 32 ∨ (Rect.block (s := S4096x28672) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x14336.size a
  hwx0_3 : ∀ i : grid0.Coords, EltTy.bits .bf16 = 32 ∨ (Rect.block (s := S512x14336) S512x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x14336.size a
  hwx1_0 : ∀ i : grid1.Coords, EltTy.bits .bf16 = 32 ∨ (Rect.block (s := S512x14336) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S14336x4096.size a
  hwx1_1 : ∀ i : grid1.Coords, EltTy.bits .f32 = 32 ∨ (Rect.block (s := S14336x4096) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x4096.size a
  hwx1_2 : ∀ i : grid1.Coords, EltTy.bits .f32 = 32 ∨ (Rect.block (s := S512x4096) S512x2048.size (cc1_transform_2 i) (hinb1_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x4096 : Shape := ⟨2, ![512, 4096]⟩
abbrev S4096x28672 : Shape := ⟨2, ![4096, 28672]⟩
abbrev S14336x4096 : Shape := ⟨2, ![14336, 4096]⟩
abbrev S512x28672 : Shape := ⟨2, ![512, 28672]⟩
abbrev S512x14336 : Shape := ⟨2, ![512, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x28672, .f32⟩
  | .hbm, ⟨2, _⟩ => ⟨S14336x4096, .f32⟩
  | .hbm, ⟨3, _⟩ => ⟨S512x28672, .f32⟩
  | .hbm, ⟨4, _⟩ => ⟨S512x14336, .f32⟩
  | .hbm, ⟨5, _⟩ => ⟨S512x14336, .f32⟩
  | .hbm, ⟨6, _⟩ => ⟨S512x14336, .f32⟩
  | .hbm, ⟨7, _⟩ => ⟨S512x14336, .f32⟩
  | .hbm, ⟨8, _⟩ => ⟨S_, .f32⟩
  | .hbm, ⟨9, _⟩ => ⟨S512x14336, .f32⟩
  | .hbm, ⟨10, _⟩ => ⟨S512x14336, .f32⟩
  | .hbm, ⟨11, _⟩ => ⟨S_, .f32⟩
  | .hbm, ⟨12, _⟩ => ⟨S512x14336, .f32⟩
  | .hbm, ⟨13, _⟩ => ⟨S512x14336, .f32⟩
  | .hbm, ⟨14, _⟩ => ⟨S512x14336, .f32⟩
  | .hbm, ⟨15, _⟩ => ⟨S512x14336, .f32⟩
  | .hbm, ⟨16, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S512x28672_S512x14336_0_0 : S512x28672.Slices ![0, 0] S512x14336
  slices_S512x28672_S512x14336_0_14336 : S512x28672.Slices ![0, 14336] S512x14336
  bcast_S_S512x14336 : S_.BroadcastsInDim S512x14336 (![] : Fin 0 → Fin S512x14336.rank)
  dot_S512x4096_S4096x28672_S512x28672_1_0_0_1_n_n_wf : DotDims.WF S512x4096 S4096x28672 S512x28672 [1] [0] [0] [1] [] []
  dot_S512x14336_S14336x4096_S512x4096_1_0_0_1_n_n_wf : DotDims.WF S512x14336 S14336x4096 S512x4096 [1] [0] [0] [1] [] []

variable [Facts₀]

def dot_S512x4096_S4096x28672_S512x28672_1_0_0_1_n_n : DotDims S512x4096 S4096x28672 S512x28672 where
  lhsContracting := [1]
  rhsContracting := [0]
  lhsNonContracting := [0]
  rhsNonContracting := [1]
  lhsBatch := []
  rhsBatch := []
  wf := dot_S512x4096_S4096x28672_S512x28672_1_0_0_1_n_n_wf
def dot_S512x14336_S14336x4096_S512x4096_1_0_0_1_n_n : DotDims S512x14336 S14336x4096 S512x4096 where
  lhsContracting := [1]
  rhsContracting := [0]
  lhsNonContracting := [0]
  rhsNonContracting := [1]
  lhsBatch := []
  rhsBatch := []
  wf := dot_S512x14336_S14336x4096_S512x4096_1_0_0_1_n_n_wf

class Facts : Prop extends Facts₀ where

variable [Facts]
-- ==== Proof.K.Shares.lean ====
/-
  How the first kernel region's windows share their arrays: the fused weight array is read through two windows
  (a gate column block and an up column block), so each of the two holds half of the array's full share; the
  activation array's window holds its array whole.
-/
import proofs.«151279_j678604833229_2_alg».proof.Proof.Gen.Kernel.Launch

noncomputable section

namespace Cert.Kernel.Hand

open Idealize.ShloMosaic Idealize.SL Idealize.SL.RA
open Cert.Kernel Cert.Kernel.Gen

variable [Cert.Kernel.Facts]

/-- The left half of the full share. -/
def lh : PosShare TreeShare := ⟨Share.of TreeShare.leftHalf, by decide⟩
/-- The right half of the full share. -/
def rh : PosShare TreeShare := ⟨Share.of TreeShare.rightHalf, by decide⟩
/-- The shares of the first call's windows: the shared weight array half to each of its two windows. -/
def q0 : Fin cfg0.W → PosShare TreeShare := fun w => match w with | ⟨1, _⟩ => lh | ⟨2, _⟩ => rh | _ => fullShare

end Cert.Kernel.Hand

end
-- ==== Proof.K.Region0.lean ====
/-
  The first kernel region (the gate / up projections and their gated product), at the contents `V` the buffers
  hold when the region is entered.

  At grid point `t` (one of 56 column blocks of width 256) the body reads the whole activation array, column block
  `t` of the gate half of the fused weight and column block `56 + t` of the same array (the up half), and stores one
  block of the hidden array: the gated product of the two projections. The body keeps nothing between points, so
  what each window's staging buffer holds after the body is a function of the point's three input blocks alone.
-/
import proofs.«151279_j678604833229_2_alg».proof.Proof.Gen.Kernel.Launch
import proofs.«151279_j678604833229_2_alg».proof.Proof.Gen.Kernel.Skeleton
import proofs.«151279_j678604833229_2_alg».proof.Proof.Gen.Kernel.Points
import proofs.«151279_j678604833229_2_alg».proof.Proof.K.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_x : Rect S512x4096 := Rect.unit (s := S512x4096) ![0, 0] S512x4096.size inb_S512x4096_S512x4096_0_0
abbrev r0_w : Rect S4096x256 := Rect.unit (s := S4096x256) ![0, 0] S4096x256.size inb_S4096x256_S4096x256_0_0
abbrev r0_h : Rect S512x256 := Rect.unit (s := S512x256) ![0, 0] S512x256.size inb_S512x256_S512x256_0_0

/-- The hidden block the body leaves in the output window's buffer, from the three input blocks: its one store. -/
def out0_3 (x0 : Vec F S512x4096 .bf16) (x1 x2 : Vec F S4096x256 .f32) : Vec F S512x256 .bf16 :=
  View.canon [⟨r0_h, k0_pay1 (View.ld x0 r0_x) (View.ld x1 r0_w) (View.ld x2 r0_w)⟩]

/-- The store takes the whole buffer, so it covers it. -/
theorem cover0_3 (p0 : Vec F S512x256 .bf16) (y : S512x256.Idx) :
    ∃ pc ∈ ([⟨r0_h, p0⟩] : List (View.Piece (Elt F) S512x256 .bf16)), y ∈ pc.1.set :=
  View.cover_of_tiled [⟨r0_h, p0⟩] S512x256.size (by rfl) y

/-! ## The body's triple -/

set_option maxHeartbeats 1000000 in
/-- On whole staging buffers, the inputs' at contents `x0 x1 x2` and the output's at anything, the body runs to a
    state holding the inputs' as they were and the output's at `out0_3` of them. -/
theorem sound_kernel0 (c : Dev nD) (E : Set ℕ) (i : grid0.Coords)
    (arg1 : Memref sig .tc .vmem S512x4096 .bf16) (harg1 : arg1.IsWhole) (arg2 : Memref sig .tc .vmem S4096x256 .f32) (harg2 : arg2.IsWhole)
    (arg3 : Memref sig .tc .vmem S4096x256 .f32) (harg3 : arg3.IsWhole) (arg4 : Memref sig .tc .vmem S512x256 .bf16) (harg4 : arg4.IsWhole)
    (x0 : Vec F S512x4096 .bf16) (x1 x2 : Vec F S4096x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_up_kernel i arg1 harg1 arg2 harg2 arg3 harg3 arg4 harg4) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the first region on core `c`: the arrays as the region finds them; after the body at
    point `t` each input's buffer at its block and the output's at `out0_3` of the input blocks; the weight
    array's share dealt half to each of its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/- The down projection's body on whole staging buffers, in its two cases (the reduction coordinate zero or not):
   the branch condition in closed form over the grid, the staging memrefs at a point, and the two whole-body runs,
   each with the pieces the output's buffer ends with. -/
import proofs.«151279_j678604833229_2_alg».proof.Proof.Gen.Kernel.Launch
import proofs.«151279_j678604833229_2_alg».proof.Proof.Gen.Kernel.Skeleton
import proofs.«151279_j678604833229_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch condition of the down projection's body -/

/-- The condition of the body's conditional: the reduction coordinate (axis 1 of the grid) is zero. -/
abbrev cond1_0 (i : grid1.Coords) : Prop := (Scalar.cmpi .ne (Scalar.extui (Scalar.cmpi .eq (BitVec.ofNat 32 (i 1).val) 0#32)) 0#32) = 1#1
/-- It holds exactly at the first point of each run of 56 reduction steps — decided over the grid. -/
theorem hcond1_0 : ∀ t : Fin cfg1.N, cond1_0 (grid1.coords t) ↔ t.val % 56 = 0 :=
  (by decide +kernel : ∀ t : Fin grid1.N, cond1_0 (grid1.coords t) ↔ t.val % 56 = 0)

/-! ## The staging memrefs at a point -/

/-- One staging buffer of the output window, through which its contents are stated. -/
abbrev VO1_2 : View sig .tc .vmem S512x2048 .f32 := (Memref.whole cc1_stg2_0 : Memref sig .tc .vmem S512x2048 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)

/-! ## The body's two runs -/

set_option maxHeartbeats 1000000 in
/-- The body when the reduction coordinate is zero: the accumulator is overwritten with zeros, then with the
    zero block plus the product of the two input blocks. The pieces the output buffer ends with are the witness. -/
noncomputable def kernelRun1_A (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) :
    { L2 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body when the reduction coordinate is not zero: the accumulator, holding `xo`, is overwritten with
    `xo` plus the product of the two input blocks. -/
noncomputable def kernelRun1_B (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) :
    { L2 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Region1.lean ====
/- The down projection's region at the buffer contents `V` it is entered with: what the output window's staging
   buffer holds after each grid point (a recursion on the point: the zero block plus the first product when the
   reduction coordinate is zero, the running contents plus the product otherwise), the pipeline's proof data, and
   the body obligation at every point. -/
import proofs.«151279_j678604833229_2_alg».proof.Proof.K.Region1Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- The pieces of the case "reduction coordinate zero" tile the output block, so they cover it. -/
theorem cover1_A_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) (y : S512x2048.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S512x2048.size (by sl_kernel_rfl) y

/-- What that case leaves in the output's staging buffer: its pieces read back. -/
def out1_A_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) : Vec F S512x2048 .f32 :=
  VO1_2.read (Elt F) (VO1_2.writes (Elt F) VO1_2.junk (kernelRun1_A c i arg2 harg2 arg3 harg3 arg4 harg4 hc0 x0 x1).1)

/-- The pieces of the case "reduction coordinate not zero" tile the output block, so they cover it. -/
theorem cover1_B_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) (y : S512x2048.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S512x2048.size (by sl_kernel_rfl) y

/-- What that case leaves in the output's staging buffer: its pieces read back. -/
def out1_B_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) : Vec F S512x2048 .f32 :=
  VO1_2.read (Elt F) (VO1_2.writes (Elt F) VO1_2.junk (kernelRun1_B c i arg2 harg2 arg3 harg3 arg4 harg4 hc0 x0 x1 xo2).1)

/-! ## What the output's buffer holds after each point -/

/-- The accumulation: what the output window's staging buffer holds after the body at position `n`. -/
def outsAt1 (c : Dev nD) : (n : ℕ) → n < cfg1.N → Vec F S512x2048 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 56 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point whose reduction coordinate is zero. -/
theorem outsAt1_A (c : Dev nD) (t : Fin cfg1.N) (h0 : t.val % 56 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point whose reduction coordinate is not zero: over what the point before left. -/
theorem outsAt1_B (c : Dev nD) (t : Fin cfg1.N) (h0 : ¬t.val % 56 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the down projection's pipeline on core `c`: the arrays as the region finds them; after the
    body at point `t` each input's buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point whose reduction coordinate is not zero the output's current staging buffer holds what the body
    left at the point before: the point is not the first, and the buffer was not written back between. -/
theorem before1_2_B (c : Dev nD) (t : Fin cfg1.N) (h0 : ¬t.val % 56 = 0) (d) :
    (dat1 V c).before 2 t d = (outsAt1 V c (t.val - 1) (Nat.lt_of_le_of_lt (Nat.sub_le _ _) t.isLt)) := by
  have hN : t.val < 112 := lt_of_lt_of_eq t.isLt (show cfg1.N = 112 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 112 := lt_of_lt_of_eq t.isLt (show cfg1.N = 112 from N_1)
  by_cases h0 : t.val % 56 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The carried output's value, in the skeleton's payloads -/

theorem hz : (![0, 0] : Fin 2 → Nat) = fun _ => 0 := funext fun a => by fin_cases a <;> rfl

/-- Reduction coordinate not zero: the body leaves, in the output's buffer holding `xo`, `xo` plus the product of the
    two input blocks — its one covering store's payload, whose loads read the whole buffers. -/
theorem out1_B_2_eq (c : Dev nD) (i : grid1.Coords) (a2 : Memref sig .tc .vmem S512x256 .bf16) (h2 : a2.IsWhole) (a3 : Memref sig .tc .vmem S256x2048 .f32) (h3 : a3.IsWhole) (a4 : Memref sig .tc .vmem S512x2048 .f32) (h4 : a4.IsWhole) (hc : ¬cond1_0 i)
    (x0 : Vec F S512x256 .bf16) (x1 : Vec F S256x2048 .f32) (xo : Vec F S512x2048 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S512x256) hz, View.ld_unit_zero (S := S256x2048) hz, View.ld_unit_zero (S := S512x2048) hz]

/-- Reduction coordinate zero: the body stores the zero block, reads it back, and leaves the zero block plus the
    product of the two input blocks. -/
theorem out1_A_2_eq (c : Dev nD) (i : grid1.Coords) (a2 : Memref sig .tc .vmem S512x256 .bf16) (h2 : a2.IsWhole) (a3 : Memref sig .tc .vmem S256x2048 .f32) (h3 : a3.IsWhole) (a4 : Memref sig .tc .vmem S512x2048 .f32) (h4 : a4.IsWhole) (hc : cond1_0 i)
    (x0 : Vec F S512x256 .bf16) (x1 : Vec F S256x2048 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S512x2048) hz, View.readCov_unit_zero (S := S512x2048) _ hz]
  simp only [View.readAt_eq_ld, h2.read_unread, h3.read_unread, View.ld_unit_zero (S := S512x256) hz, View.ld_unit_zero (S := S256x2048) hz]

theorem outsAt1_reset (c : Dev nD) (t : Fin cfg1.N) (h0 : t.val % 56 = 0) :
    outsAt1 V c t.val t.isLt = k1_pay2 (iblk1 V c 0 t) (iblk1 V c 1 t) (k1_pay1 (F := F)) :=
  (outsAt1_A V c t h0).trans (out1_A_2_eq ..)

theorem outsAt1_acc (c : Dev nD) (t : Fin cfg1.N) (h0 : ¬ t.val % 56 = 0) :
    outsAt1 V c t.val t.isLt = k1_pay2 (iblk1 V c 0 t) (iblk1 V c 1 t) (outsAt1 V c (t.val - 1) (Nat.lt_of_le_of_lt (Nat.sub_le _ _) t.isLt)) :=
  (outsAt1_B V c t h0).trans (out1_B_2_eq ..)

end Cert.Kernel.Hand

end
-- ==== Proof.K.Share0.lean ====
/-
  The first kernel region's arrays among a core's unscoped buffers. Two of its windows read one array (two column
  blocks of the fused weight), so the arrays behind the windows are three distinct buffers for four windows: the
  shared buffer's full share is dealt in halves to the two windows on it, every other window holds its buffer whole.
  Entry: the unscoped buffers at a valuation are the region's arrays at the contents read off it, beside the rest.
  Exit: the arrays at any contents and the rest are the unscoped buffers at the valuation updated at the arrays.
-/
import proofs.«151279_j678604833229_2_alg».proof.Proof.Gen.Kernel.Launch
import proofs.«151279_j678604833229_2_alg».proof.Proof.K.Shares
import Idealize.ShloMosaic.Lib.Pipeline.Regions
import Idealize.ShloMosaic.Lib.Pipeline.RegionsLoop
import Idealize.ShloMosaic.Lib.Pipeline.Kit
import Idealize.ShloMosaic.Lib.Tactic

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-! ## The two halves make the full share -/

theorem lh_eq : lh = fullShare.left := by decide
theorem rh_eq : rh = fullShare.right := by decide

/-- The full share is the composite of the two halves. -/
theorem full_mem : fullShare ∈ lh ·? rh := by
  rw [lh_eq, rh_eq]; exact PosShare.mem_left_op_right fullShare

/-! ## The buffers behind the windows -/

/-- The four windows sit on three buffers. -/
theorem image0 : Finset.univ.image (Pipeline.arrRef spec0) = ([main_v0, main_arg1, main_v1] : List (Ref sig .tc)).toFinset := by decide

/-- A core's unscoped buffers are the buffers behind the windows and the rest. -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.PerCore.unscopedBufs_split₀ (P := Unit) (fun _ _ => cfg0) () c winFacts₀0.arr_unscoped V

/-- The buffers behind the windows, one by one, each whole at the full share. -/
theorem arrBufs0_eq (c : Dev nD) (V : (b : Ref sig .tc) → Buf (Elt F) ((c : Thread nD τ).loc b)) :
    (Pipeline.arrBufs spec0 c V : sProp 𝕄) = iprop((((c : Thread nD τ).loc main_v0) ↦{fullShare} V main_v0) ∗ (((c : Thread nD τ).loc main_arg1) ↦{fullShare} V main_arg1) ∗ (((c : Thread nD τ).loc main_v1) ↦{fullShare} V main_v1)) := by
  unfold Pipeline.arrBufs
  exact bigSep_eq_bigSepL_of_eq [main_v0, main_arg1, main_v1] image0 (by decide) _

/-- Each window's share under `q0`: the two windows on the shared buffer hold a half each, the other input and the
    output hold theirs whole. -/
theorem share0 (c : Dev nD) (dat : Pipeline.Dat τ (Elt F) Unit ℕ (UR sig nD τ) ℕ cfg0 c) (hq : dat.q = q0) :
    dat.share 0 = fullShare ∧ dat.share 1 = lh ∧ dat.share 2 = rh ∧ dat.share 3 = fullShare := by
  unfold Dat.share; rw [hq]; exact ⟨rfl, rfl, rfl, rfl⟩

/-- The region's arrays at contents read off a valuation are the buffers behind the windows at that valuation: the
    shared buffer's full share is the two halves its windows hold. -/
theorem arrays0_eq (c : Dev nD) (dat : Pipeline.Dat τ (Elt F) Unit ℕ (UR sig nD τ) ℕ cfg0 c) (hq : dat.q = q0)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄) = Pipeline.arrBufs spec0 c V := by
  obtain ⟨h0, h1, h2, h3⟩ := share0 c dat hq
  have e : (dat.arrays G : sProp 𝕄)
      = bigSep Finset.univ fun w : Fin 4 => (((c : Thread nD τ).loc (Pipeline.arrRef spec0 w)) ↦{dat.share w} V (Pipeline.arrRef spec0 w) : sProp 𝕄) := by
    unfold Dat.arrays
    exact bigSep_congr fun w _ => by rw [(arr_whole0 w).set_eq_univ, hG]
  rw [e, arrBufs0_eq, bigSep_W0, h0, h1, h2, h3]
  refine Entails.antisymm ?_ ?_
  · show (_ : sProp 𝕄) ⊢ _
    iintro ⟨H0, H1, H2, H3⟩
    isplitl [H0]; · iexact H0
    isplitl [H1 H2]
    · ihave H := (pointsTo_share full_mem).2 $$ [H1 H2]
      · isplitl [H1]; · iexact H1
        iexact H2
      iexact H
    iexact H3
  · show (_ : sProp 𝕄) ⊢ _
    iintro ⟨H0, H12, H3⟩
    ihave H := (pointsTo_share full_mem).1 $$ H12
    icases H with ⟨H1, H2⟩
    isplitl [H0]; · iexact H0
    isplitl [H1]; · iexact H1
    isplitl [H2]; · iexact H2
    iexact H3

/-! ## Entry and exit -/

/-- ENTRY: a core's unscoped buffers at contents `V` are the first region's arrays at the proof data's entry
    contents — those being read off `V` — and the unscoped rest. -/
theorem arrays_of_unscopedBufs0 (c : Dev nD) (dat : Pipeline.Dat τ (Elt F) Unit ℕ (UR sig nD τ) ℕ cfg0 c) (hq : dat.q = q0)
    (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [split0, arrays0_eq c dat hq V (dat.arrAt · 0) (fun w => by rw [show dat.arrAt w 0 = dat.A w from rfl, hA])]

/-- EXIT: the first region's arrays at contents `G` and the unscoped rest at `V` are the core's unscoped buffers at
    any valuation `V'` that has the arrays at `G` and agrees with `V` off them. -/
theorem unscopedBufs_of_arrays0 (c : Dev nD) (dat : Pipeline.Dat τ (Elt F) Unit ℕ (UR sig nD τ) ℕ cfg0 c) (hq : dat.q = q0)
    (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [split0, arrays0_eq c dat hq V' G hG]
  refine sep_mono .rfl (Entails.of_eq ?_)
  unfold Pipeline.unscopedRest
  exact bigSep_congr fun b hb => by rw [hrest b (Finset.mem_sdiff.mp hb).2]

end Cert.Kernel.Hand

end
-- ==== Proof.K.Run.lean ====
/-
  The run of @main: one host operation (the activations rounded to the narrow format), the first kernel region
  (which fills the hidden array), the second kernel region (which fills the result).

  Between two items the core holds every unscoped buffer whole: at launch the launch memory; after the host
  operation the fold of that operation over it; after the first region the same with the hidden array at what
  the region's write-backs leave; after the second region the same with the result array at what ITS write-backs
  leave. Each region takes its arrays out of that state at its entry and puts them back at its exit; the first
  region's two weight windows read one array, so that array's full share is dealt half to each and joined again.
  The final memory is read off the last state: the result array and the three untouched arguments.
-/
import proofs.«151279_j678604833229_2_alg».proof.Proof.Gen.Kernel.Launch
import proofs.«151279_j678604833229_2_alg».proof.Proof.Gen.Kernel.Skeleton
import proofs.«151279_j678604833229_2_alg».proof.Proof.Gen.Kernel.Points
import proofs.«151279_j678604833229_2_alg».proof.Proof.K.Region0
import proofs.«151279_j678604833229_2_alg».proof.Proof.K.Region1
import proofs.«151279_j678604833229_2_alg».proof.Proof.K.Share0
import Idealize.ShloMosaic.Lib.Pipeline.Regions
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- After the first region: the hidden array at what the region's write-backs leave, every other buffer as entered. -/
def W2 (c : Dev nD) : Valuation τ sig (Elt F) :=
  Function.update (W1 m ρ c) (Proc.devRef .tc main_v1) ((dat0 (U1 m ρ) c).arrAt 3 cfg0.N)
abbrev U2 : (c : Dev nD) → (b : Ref sig .tc) → Buf (Elt F) ((c : Thread nD τ).loc b) := fun c b => W2 m ρ c b
/-- After the second region: the result array at what that region's write-backs leave. -/
def W3 (c : Dev nD) : Valuation τ sig (Elt F) :=
  Function.update (W2 m ρ c) (Proc.devRef .tc main_v2) ((dat1 (U2 m ρ) c).arrAt 2 cfg1.N)
abbrev U3 : (c : Dev nD) → (b : Ref sig .tc) → Buf (Elt F) ((c : Thread nD τ).loc b) := fun c b => W3 m ρ c b

theorem W2_hidden (c : Dev nD) : W2 m ρ c (Proc.devRef .tc main_v1) = (dat0 (U1 m ρ) c).arrAt 3 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2
  exact Function.update_of_ne (StableHlo.devRef_ne_of_ne hb : (Proc.devRef .tc b : DevRef τ sig) ≠ Proc.devRef .tc main_v1) _ _
theorem W3_result (c : Dev nD) : W3 m ρ c (Proc.devRef .tc main_v2) = (dat1 (U2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3
  exact Function.update_of_ne (StableHlo.devRef_ne_of_ne hb : (Proc.devRef .tc b : DevRef τ sig) ≠ Proc.devRef .tc main_v2) _ _

/-- At the first region's exit each of its arrays holds what the pipeline leaves: the inputs as entered, the hidden
    array its write-backs. -/
theorem hG0 (c : Dev nD) (w : Fin cfg0.W) : (dat0 (U1 m ρ) c).arrAt w cfg0.N = U2 m ρ c (Pipeline.arrRef spec0 w) :=
  match w with
  | ⟨0, _⟩ => (((dat0 (U1 m ρ) c).arrAt_in 0 rfl _).trans (A_eq0 (U1 m ρ) c 0)).trans (W2_of_ne m ρ c main_v0 (by decide)).symm
  | ⟨1, _⟩ => (((dat0 (U1 m ρ) c).arrAt_in 1 rfl _).trans (A_eq0 (U1 m ρ) c 1)).trans (W2_of_ne m ρ c main_arg1 (by decide)).symm
  | ⟨2, _⟩ => (((dat0 (U1 m ρ) c).arrAt_in 2 rfl _).trans (A_eq0 (U1 m ρ) c 2)).trans (W2_of_ne m ρ c main_arg1 (by decide)).symm
  | ⟨3, _⟩ => (W2_hidden m ρ c).symm
theorem hrest0 (c : Dev nD) : ∀ b, b ∉ Finset.univ.image (Pipeline.arrRef spec0) → U2 m ρ c b = U1 m ρ c b :=
  fun b hb => W2_of_ne m ρ c b fun e => hb (Finset.mem_image.mpr ⟨3, Finset.mem_univ _, e.symm⟩)

/-- The same at the second region's exit. -/
theorem hG1 (c : Dev nD) (w : Fin cfg1.W) : (dat1 (U2 m ρ) c).arrAt w cfg1.N = U3 m ρ c (Pipeline.arrRef spec1 w) :=
  match w with
  | ⟨0, _⟩ => (((dat1 (U2 m ρ) c).arrAt_in 0 rfl _).trans (A_eq1 (U2 m ρ) c 0)).trans (W3_of_ne m ρ c main_v1 (by decide)).symm
  | ⟨1, _⟩ => (((dat1 (U2 m ρ) c).arrAt_in 1 rfl _).trans (A_eq1 (U2 m ρ) c 1)).trans (W3_of_ne m ρ c main_arg2 (by decide)).symm
  | ⟨2, _⟩ => (W3_result m ρ c).symm
theorem hrest1 (c : Dev nD) : ∀ b, b ∉ Finset.univ.image (Pipeline.arrRef spec1) → U3 m ρ c b = U2 m ρ c b :=
  fun b hb => W3_of_ne m ρ c b fun e => hb (Finset.mem_image.mpr ⟨2, Finset.mem_univ _, e.symm⟩)

/-- No item writes an argument: its buffer at the end is the launch memory's. -/
theorem hostOps0_keeps (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))
theorem W3_arg (c : Dev nD) (b : Ref sig .tc) (h0 : b ≠ main_v0) (h1 : b ≠ main_v1) (h2 : b ≠ main_v2) :
    W3 m ρ c (Proc.devRef .tc b) = m ((c : Thread nD τ).loc b) :=
  (W3_of_ne m ρ c b h2).trans <| (W2_of_ne m ρ c b h1).trans <| (hostOps0_keeps m ρ c b h0).trans rfl

/-! ## The proof data family and the thread state -/

/-- No pallas_call has a prefetched table. -/
abbrev tabs : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabs p) c
  | ⟨0, _⟩ => fun c => dat0 (U1 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_alloc_none : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) tabs (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := arrays_of_unscopedBufs0 (F := F) c (dat0 (U1 m ρ) c) rfl (U1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (dat0 (U1 m ρ) c) rfl (U1 m ρ c) (U2 m ρ c)
      ((dat0 (U1 m ρ) c).arrAt · cfg0.N) (hG0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) tabs (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hG1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) tabs (pdats m ρ) () defs₀ 𝒱₀ L lv) :=
  [ .host (hseg hostOps0 hostOps0_sub hostOps0_alloc_none (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    with the result array at what the second region's write-backs leave and the three arguments as launched. -/
theorem run_main : θ_run defs (onTc (τ := τ) (main (F := F))) ⟨m, fun _ => 0, ρ⟩ (fun r => ∀ c : Dev nD,
      r.2.mem ((c.tc : Thread nD τ).loc main_v2) = (dat1 (U2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) tabs (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_result m ρ c),
       (h c _ (mem_uc main_arg0 (by decide))).trans (W3_arg m ρ c main_arg0 (by decide) (by decide) (by decide)),
       (h c _ (mem_uc main_arg1 (by decide))).trans (W3_arg m ρ c main_arg1 (by decide) (by decide) (by decide)),
       (h c _ (mem_uc main_arg2 (by decide))).trans (W3_arg m ρ c main_arg2 (by decide) (by decide) (by decide))⟩)

end Cert.Kernel.Hand

end
-- ==== Proof.KI.Shares.lean ====
/-
  How the first kernel region's windows share their arrays: the fused weight array is read through two windows
  (a gate column block and an up column block), so each of the two holds half of the array's full share; the
  activation array's window holds its array whole.
-/
import proofs.«151279_j678604833229_2_alg».proof.Proof.Gen.KernelIdeal.Launch

noncomputable section

namespace Cert.KernelIdeal.Hand

open Idealize.ShloMosaic Idealize.SL Idealize.SL.RA
open Cert.KernelIdeal Cert.KernelIdeal.Gen

variable [Cert.KernelIdeal.Facts]

/-- The left half of the full share. -/
def lh : PosShare TreeShare := ⟨Share.of TreeShare.leftHalf, by decide⟩
/-- The right half of the full share. -/
def rh : PosShare TreeShare := ⟨Share.of TreeShare.rightHalf, by decide⟩
/-- The shares of the first call's windows: the shared weight array half to each of its two windows. -/
def q0 : Fin cfg0.W → PosShare TreeShare := fun w => match w with | ⟨1, _⟩ => lh | ⟨2, _⟩ => rh | _ => fullShare

end Cert.KernelIdeal.Hand

end
-- ==== Proof.KI.Region0.lean ====
/-
  The first kernel region (the gate / up projections and their gated product), at the contents `V` the buffers
  hold when the region is entered.

  At grid point `t` (one of 56 column blocks of width 256) the body reads the whole activation array, column block
  `t` of the gate half of the fused weight and column block `56 + t` of the same array (the up half), and stores one
  block of the hidden array: the gated product of the two projections. The body keeps nothing between points, so
  what each window's staging buffer holds after the body is a function of the point's three input blocks alone.
-/
import proofs.«151279_j678604833229_2_alg».proof.Proof.Gen.KernelIdeal.Launch
import proofs.«151279_j678604833229_2_alg».proof.Proof.Gen.KernelIdeal.Skeleton
import proofs.«151279_j678604833229_2_alg».proof.Proof.Gen.KernelIdeal.Points
import proofs.«151279_j678604833229_2_alg».proof.Proof.KI.Shares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: an unfetched window's
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev r0_x : Rect S512x4096 := Rect.unit (s := S512x4096) ![0, 0] S512x4096.size inb_S512x4096_S512x4096_0_0
abbrev r0_w : Rect S4096x256 := Rect.unit (s := S4096x256) ![0, 0] S4096x256.size inb_S4096x256_S4096x256_0_0
abbrev r0_h : Rect S512x256 := Rect.unit (s := S512x256) ![0, 0] S512x256.size inb_S512x256_S512x256_0_0

/-- The hidden block the body leaves in the output window's buffer, from the three input blocks: its one store. -/
def out0_3 (x0 : Vec F S512x4096 .bf16) (x1 x2 : Vec F S4096x256 .f32) : Vec F S512x256 .bf16 :=
  View.canon [⟨r0_h, k0_pay1 (View.ld x0 r0_x) (View.ld x1 r0_w) (View.ld x2 r0_w)⟩]

/-- The store takes the whole buffer, so it covers it. -/
theorem cover0_3 (p0 : Vec F S512x256 .bf16) (y : S512x256.Idx) :
    ∃ pc ∈ ([⟨r0_h, p0⟩] : List (View.Piece (Elt F) S512x256 .bf16)), y ∈ pc.1.set :=
  View.cover_of_tiled [⟨r0_h, p0⟩] S512x256.size (by rfl) y

/-! ## The body's triple -/

set_option maxHeartbeats 1000000 in
/-- On whole staging buffers, the inputs' at contents `x0 x1 x2` and the output's at anything, the body runs to a
    state holding the inputs' as they were and the output's at `out0_3` of them. -/
theorem sound_kernel0 (c : Dev nD) (E : Set ℕ) (i : grid0.Coords)
    (arg1 : Memref sig .tc .vmem S512x4096 .bf16) (harg1 : arg1.IsWhole) (arg2 : Memref sig .tc .vmem S4096x256 .f32) (harg2 : arg2.IsWhole)
    (arg3 : Memref sig .tc .vmem S4096x256 .f32) (harg3 : arg3.IsWhole) (arg4 : Memref sig .tc .vmem S512x256 .bf16) (harg4 : arg4.IsWhole)
    (x0 : Vec F S512x4096 .bf16) (x1 x2 : Vec F S4096x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_up_kernel i arg1 harg1 arg2 harg2 arg3 harg3 arg4 harg4) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data of the first region on core `c`: the arrays as the region finds them; after the body at
    point `t` each input's buffer at its block and the output's at `out0_3` of the input blocks; the weight
    array's share dealt half to each of its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q := q0
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/- The down projection's body on whole staging buffers, in its two cases (the reduction coordinate zero or not):
   the branch condition in closed form over the grid, the staging memrefs at a point, and the two whole-body runs,
   each with the pieces the output's buffer ends with. -/
import proofs.«151279_j678604833229_2_alg».proof.Proof.Gen.KernelIdeal.Launch
import proofs.«151279_j678604833229_2_alg».proof.Proof.Gen.KernelIdeal.Skeleton
import proofs.«151279_j678604833229_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch condition of the down projection's body -/

/-- The condition of the body's conditional: the reduction coordinate (axis 1 of the grid) is zero. -/
abbrev cond1_0 (i : grid1.Coords) : Prop := (Scalar.cmpi .ne (Scalar.extui (Scalar.cmpi .eq (BitVec.ofNat 32 (i 1).val) 0#32)) 0#32) = 1#1
/-- It holds exactly at the first point of each run of 56 reduction steps — decided over the grid. -/
theorem hcond1_0 : ∀ t : Fin cfg1.N, cond1_0 (grid1.coords t) ↔ t.val % 56 = 0 :=
  (by decide +kernel : ∀ t : Fin grid1.N, cond1_0 (grid1.coords t) ↔ t.val % 56 = 0)

/-! ## The staging memrefs at a point -/

/-- One staging buffer of the output window, through which its contents are stated. -/
abbrev VO1_2 : View sig .tc .vmem S512x2048 .f32 := (Memref.whole cc1_stg2_0 : Memref sig .tc .vmem S512x2048 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)

/-! ## The body's two runs -/

set_option maxHeartbeats 1000000 in
/-- The body when the reduction coordinate is zero: the accumulator is overwritten with zeros, then with the
    zero block plus the product of the two input blocks. The pieces the output buffer ends with are the witness. -/
noncomputable def kernelRun1_A (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) :
    { L2 : List (View.Piece (Elt F) S512x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- The body when the reduction coordinate is not zero: the accumulator, holding `xo`, is overwritten with
    `xo` plus the product of the two input blocks. -/
noncomputable def kernelRun1_B (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) :
    { L2 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc1__down_kernel i arg2 harg2 arg3 harg3 arg4 harg4) K } := by
  refine ⟨?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Region1.lean ====
/- The down projection's region at the buffer contents `V` it is entered with: what the output window's staging
   buffer holds after each grid point (a recursion on the point: the zero block plus the first product when the
   reduction coordinate is zero, the running contents plus the product otherwise), the pipeline's proof data, and
   the body obligation at every point. -/
import proofs.«151279_j678604833229_2_alg».proof.Proof.KI.Region1Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output's buffer -/

/-- The pieces of the case "reduction coordinate zero" tile the output block, so they cover it. -/
theorem cover1_A_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) (y : S512x2048.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S512x2048.size (by sl_kernel_rfl) y

/-- What that case leaves in the output's staging buffer: its pieces read back. -/
def out1_A_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : cond1_0 i)
    (x0 : Vec F S512x256 .bf16) (x1 : Vec F S256x2048 .f32) : Vec F S512x2048 .f32 :=
  VO1_2.read (Elt F) (VO1_2.writes (Elt F) VO1_2.junk (kernelRun1_A c i arg2 harg2 arg3 harg3 arg4 harg4 hc0 x0 x1).1)

/-- The pieces of the case "reduction coordinate not zero" tile the output block, so they cover it. -/
theorem cover1_B_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) (y : S512x2048.Idx) :
    ∃ pc ∈ (kernelRun1_B c i arg2 harg2 arg3 harg3 arg4 harg4 hc0 x0 x1 xo2).1, y ∈ pc.1.set :=
  View.cover_of_tiledL (kernelRun1_B c i arg2 harg2 arg3 harg3 arg4 harg4 hc0 x0 x1 xo2).1 S512x2048.size (by sl_kernel_rfl) y

/-- What that case leaves in the output's staging buffer: its pieces read back. -/
def out1_B_2 (c : Dev nD) (i : grid1.Coords) (arg2 : Memref sig .tc .vmem S512x256 .bf16) (harg2 : arg2.IsWhole) (arg3 : Memref sig .tc .vmem S256x2048 .f32) (harg3 : arg3.IsWhole) (arg4 : Memref sig .tc .vmem S512x2048 .f32) (harg4 : arg4.IsWhole) (hc0 : ¬cond1_0 i)
    (x0 : Vec F S512x256 .bf16) (x1 : Vec F S256x2048 .f32) (xo2 : Vec F S512x2048 .f32) : Vec F S512x2048 .f32 :=
  VO1_2.read (Elt F) (VO1_2.writes (Elt F) VO1_2.junk (kernelRun1_B c i arg2 harg2 arg3 harg3 arg4 harg4 hc0 x0 x1 xo2).1)

/-! ## What the output's buffer holds after each point -/

/-- The accumulation: what the output window's staging buffer holds after the body at position `n`. -/
def outsAt1 (c : Dev nD) : (n : ℕ) → n < cfg1.N → Vec F S512x2048 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (iblk1 V c 0 ⟨0, hn⟩) (iblk1 V c 1 ⟨0, hn⟩)
  | n + 1, hn =>
    if h0 : (n + 1) % 56 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (iblk1 V c 0 ⟨n + 1, hn⟩) (iblk1 V c 1 ⟨n + 1, hn⟩) (outsAt1 c n (Nat.lt_of_succ_lt hn))

/-- `outsAt1` at a point whose reduction coordinate is zero. -/
theorem outsAt1_A (c : Dev nD) (t : Fin cfg1.N) (h0 : t.val % 56 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- `outsAt1` at a point whose reduction coordinate is not zero: over what the point before left. -/
theorem outsAt1_B (c : Dev nD) (t : Fin cfg1.N) (h0 : ¬t.val % 56 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the down projection's pipeline on core `c`: the arrays as the region finds them; after the
    body at point `t` each input's buffer at its block and the output's at `outsAt1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point whose reduction coordinate is not zero the output's current staging buffer holds what the body
    left at the point before: the point is not the first, and the buffer was not written back between. -/
theorem before1_2_B (c : Dev nD) (t : Fin cfg1.N) (h0 : ¬t.val % 56 = 0) (d) :
    (dat1 V c).before 2 t d = (outsAt1 V c (t.val - 1) (Nat.lt_of_le_of_lt (Nat.sub_le _ _) t.isLt)) := by
  have hN : t.val < 112 := lt_of_lt_of_eq t.isLt (show cfg1.N = 112 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 112 := lt_of_lt_of_eq t.isLt (show cfg1.N = 112 from N_1)
  by_cases h0 : t.val % 56 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The carried output's value, in the skeleton's payloads -/

theorem hz : (![0, 0] : Fin 2 → Nat) = fun _ => 0 := funext fun a => by fin_cases a <;> rfl

/-- Reduction coordinate not zero: the body leaves, in the output's buffer holding `xo`, `xo` plus the product of the
    two input blocks — its one covering store's payload, whose loads read the whole buffers. -/
theorem out1_B_2_eq (c : Dev nD) (i : grid1.Coords) (a2 : Memref sig .tc .vmem S512x256 .bf16) (h2 : a2.IsWhole) (a3 : Memref sig .tc .vmem S256x2048 .f32) (h3 : a3.IsWhole) (a4 : Memref sig .tc .vmem S512x2048 .f32) (h4 : a4.IsWhole) (hc : ¬cond1_0 i)
    (x0 : Vec F S512x256 .bf16) (x1 : Vec F S256x2048 .f32) (xo : Vec F S512x2048 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S512x256) hz, View.ld_unit_zero (S := S256x2048) hz, View.ld_unit_zero (S := S512x2048) hz]

/-- Reduction coordinate zero: the body stores the zero block, reads it back, and leaves the zero block plus the
    product of the two input blocks. -/
theorem out1_A_2_eq (c : Dev nD) (i : grid1.Coords) (a2 : Memref sig .tc .vmem S512x256 .bf16) (h2 : a2.IsWhole) (a3 : Memref sig .tc .vmem S256x2048 .f32) (h3 : a3.IsWhole) (a4 : Memref sig .tc .vmem S512x2048 .f32) (h4 : a4.IsWhole) (hc : cond1_0 i)
    (x0 : Vec F S512x256 .bf16) (x1 : Vec F S256x2048 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S512x2048) hz, View.readCov_unit_zero (S := S512x2048) _ hz]
  simp only [View.readAt_eq_ld, h2.read_unread, h3.read_unread, View.ld_unit_zero (S := S512x256) hz, View.ld_unit_zero (S := S256x2048) hz]

theorem outsAt1_reset (c : Dev nD) (t : Fin cfg1.N) (h0 : t.val % 56 = 0) :
    outsAt1 V c t.val t.isLt = k1_pay2 (iblk1 V c 0 t) (iblk1 V c 1 t) (k1_pay1 (F := F)) :=
  (outsAt1_A V c t h0).trans (out1_A_2_eq ..)

theorem outsAt1_acc (c : Dev nD) (t : Fin cfg1.N) (h0 : ¬ t.val % 56 = 0) :
    outsAt1 V c t.val t.isLt = k1_pay2 (iblk1 V c 0 t) (iblk1 V c 1 t) (outsAt1 V c (t.val - 1) (Nat.lt_of_le_of_lt (Nat.sub_le _ _) t.isLt)) :=
  (outsAt1_B V c t h0).trans (out1_B_2_eq ..)

end Cert.KernelIdeal.Hand

end
-- ==== Proof.KI.Share0.lean ====
/-
  The first kernel region's arrays among a core's unscoped buffers. Two of its windows read one array (two column
  blocks of the fused weight), so the arrays behind the windows are three distinct buffers for four windows: the
  shared buffer's full share is dealt in halves to the two windows on it, every other window holds its buffer whole.
  Entry: the unscoped buffers at a valuation are the region's arrays at the contents read off it, beside the rest.
  Exit: the arrays at any contents and the rest are the unscoped buffers at the valuation updated at the arrays.
-/
import proofs.«151279_j678604833229_2_alg».proof.Proof.Gen.KernelIdeal.Launch
import proofs.«151279_j678604833229_2_alg».proof.Proof.KI.Shares
import Idealize.ShloMosaic.Lib.Pipeline.Regions
import Idealize.ShloMosaic.Lib.Pipeline.RegionsLoop
import Idealize.ShloMosaic.Lib.Pipeline.Kit
import Idealize.ShloMosaic.Lib.Tactic

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-! ## The two halves make the full share -/

theorem lh_eq : lh = fullShare.left := by decide
theorem rh_eq : rh = fullShare.right := by decide

/-- The full share is the composite of the two halves. -/
theorem full_mem : fullShare ∈ lh ·? rh := by
  rw [lh_eq, rh_eq]; exact PosShare.mem_left_op_right fullShare

/-! ## The buffers behind the windows -/

/-- The four windows sit on three buffers. -/
theorem image0 : Finset.univ.image (Pipeline.arrRef spec0) = ([main_v0, main_arg1, main_v1] : List (Ref sig .tc)).toFinset := by decide

/-- A core's unscoped buffers are the buffers behind the windows and the rest. -/
theorem split0 (c : Dev nD) (V : (b : Ref sig .tc) → Buf (Elt F) ((c : Thread nD τ).loc b)) :
    (unscopedBufs c V : sProp 𝕄) = iprop(Pipeline.arrBufs spec0 c V ∗ Pipeline.unscopedRest spec0 c V) :=
  Pipeline.PerCore.unscopedBufs_split₀ (P := Unit) (fun _ _ => cfg0) () c winFacts₀0.arr_unscoped V

/-- The buffers behind the windows, one by one, each whole at the full share. -/
theorem arrBufs0_eq (c : Dev nD) (V : (b : Ref sig .tc) → Buf (Elt F) ((c : Thread nD τ).loc b)) :
    (Pipeline.arrBufs spec0 c V : sProp 𝕄) = iprop((((c : Thread nD τ).loc main_v0) ↦{fullShare} V main_v0) ∗ (((c : Thread nD τ).loc main_arg1) ↦{fullShare} V main_arg1) ∗ (((c : Thread nD τ).loc main_v1) ↦{fullShare} V main_v1)) := by
  unfold Pipeline.arrBufs
  exact bigSep_eq_bigSepL_of_eq [main_v0, main_arg1, main_v1] image0 (by decide) _

/-- Each window's share under `q0`: the two windows on the shared buffer hold a half each, the other input and the
    output hold theirs whole. -/
theorem share0 (c : Dev nD) (dat : Pipeline.Dat τ (Elt F) Unit ℕ (UR sig nD τ) ℕ cfg0 c) (hq : dat.q = q0) :
    dat.share 0 = fullShare ∧ dat.share 1 = lh ∧ dat.share 2 = rh ∧ dat.share 3 = fullShare := by
  unfold Dat.share; rw [hq]; exact ⟨rfl, rfl, rfl, rfl⟩

/-- The region's arrays at contents read off a valuation are the buffers behind the windows at that valuation: the
    shared buffer's full share is the two halves its windows hold. -/
theorem arrays0_eq (c : Dev nD) (dat : Pipeline.Dat τ (Elt F) Unit ℕ (UR sig nD τ) ℕ cfg0 c) (hq : dat.q = q0)
    (V : (b : Ref sig .tc) → Buf (Elt F) ((c : Thread nD τ).loc b))
    (G : (w : Fin cfg0.W) → Buf (Elt F) ((cfg0.win w).arr.view.loc (c : Thread nD τ)))
    (hG : ∀ w, G w = V (Pipeline.arrRef spec0 w)) :
    (dat.arrays G : sProp 𝕄) = Pipeline.arrBufs spec0 c V := by
  obtain ⟨h0, h1, h2, h3⟩ := share0 c dat hq
  have e : (dat.arrays G : sProp 𝕄)
      = bigSep Finset.univ fun w : Fin 4 => (((c : Thread nD τ).loc (Pipeline.arrRef spec0 w)) ↦{dat.share w} V (Pipeline.arrRef spec0 w) : sProp 𝕄) := by
    unfold Dat.arrays
    exact bigSep_congr fun w _ => by rw [(arr_whole0 w).set_eq_univ, hG]
  rw [e, arrBufs0_eq, bigSep_W0, h0, h1, h2, h3]
  refine Entails.antisymm ?_ ?_
  · show (_ : sProp 𝕄) ⊢ _
    iintro ⟨H0, H1, H2, H3⟩
    isplitl [H0]; · iexact H0
    isplitl [H1 H2]
    · ihave H := (pointsTo_share full_mem).2 $$ [H1 H2]
      · isplitl [H1]; · iexact H1
        iexact H2
      iexact H
    iexact H3
  · show (_ : sProp 𝕄) ⊢ _
    iintro ⟨H0, H12, H3⟩
    ihave H := (pointsTo_share full_mem).1 $$ H12
    icases H with ⟨H1, H2⟩
    isplitl [H0]; · iexact H0
    isplitl [H1]; · iexact H1
    isplitl [H2]; · iexact H2
    iexact H3

/-! ## Entry and exit -/

/-- ENTRY: a core's unscoped buffers at contents `V` are the first region's arrays at the proof data's entry
    contents — those being read off `V` — and the unscoped rest. -/
theorem arrays_of_unscopedBufs0 (c : Dev nD) (dat : Pipeline.Dat τ (Elt F) Unit ℕ (UR sig nD τ) ℕ cfg0 c) (hq : dat.q = q0)
    (V : (b : Ref sig .tc) → Buf (Elt F) ((c : Thread nD τ).loc b)) (hA : ∀ w, dat.A w = V (Pipeline.arrRef spec0 w)) :
    (unscopedBufs c V : sProp 𝕄) ⊢ iprop(dat.arrays (dat.arrAt · 0) ∗ Pipeline.unscopedRest spec0 c V) := by
  rw [split0, arrays0_eq c dat hq V (dat.arrAt · 0) (fun w => by rw [show dat.arrAt w 0 = dat.A w from rfl, hA])]

/-- EXIT: the first region's arrays at contents `G` and the unscoped rest at `V` are the core's unscoped buffers at
    any valuation `V'` that has the arrays at `G` and agrees with `V` off them. -/
theorem unscopedBufs_of_arrays0 (c : Dev nD) (dat : Pipeline.Dat τ (Elt F) Unit ℕ (UR sig nD τ) ℕ cfg0 c) (hq : dat.q = q0)
    (V V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w))
    (hrest : ∀ b, b ∉ Finset.univ.image (Pipeline.arrRef spec0) → V' b = V b) :
    iprop(dat.arrays G ∗ Pipeline.unscopedRest spec0 c V) ⊢ (unscopedBufs c V' : sProp 𝕄) := by
  rw [split0, arrays0_eq c dat hq V' G hG]
  refine sep_mono .rfl (Entails.of_eq ?_)
  unfold Pipeline.unscopedRest
  exact bigSep_congr fun b hb => by rw [hrest b (Finset.mem_sdiff.mp hb).2]

end Cert.KernelIdeal.Hand

end
-- ==== Proof.KI.Run.lean ====
/-
  The run of @main: one host operation (the activations rounded to the narrow format), the first kernel region
  (which fills the hidden array), the second kernel region (which fills the result).

  Between two items the core holds every unscoped buffer whole: at launch the launch memory; after the host
  operation the fold of that operation over it; after the first region the same with the hidden array at what
  the region's write-backs leave; after the second region the same with the result array at what ITS write-backs
  leave. Each region takes its arrays out of that state at its entry and puts them back at its exit; the first
  region's two weight windows read one array, so that array's full share is dealt half to each and joined again.
  The final memory is read off the last state: the result array and the three untouched arguments.
-/
import proofs.«151279_j678604833229_2_alg».proof.Proof.Gen.KernelIdeal.Launch
import proofs.«151279_j678604833229_2_alg».proof.Proof.Gen.KernelIdeal.Skeleton
import proofs.«151279_j678604833229_2_alg».proof.Proof.Gen.KernelIdeal.Points
import proofs.«151279_j678604833229_2_alg».proof.Proof.KI.Region0
import proofs.«151279_j678604833229_2_alg».proof.Proof.KI.Region1
import proofs.«151279_j678604833229_2_alg».proof.Proof.KI.Share0
import Idealize.ShloMosaic.Lib.Pipeline.Regions
import Idealize.ShloMosaic.Lib.Pipeline.Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => (s₀ m ρ).mem ((c : Dev nD), b)
/-- After the host operation (the first region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- After the first region: the hidden array at what the region's write-backs leave, every other buffer as entered. -/
def W2 (c : Dev nD) : Valuation τ sig (Elt F) :=
  Function.update (W1 m ρ c) (Proc.devRef .tc main_v1) ((dat0 (U1 m ρ) c).arrAt 3 cfg0.N)
abbrev U2 : (c : Dev nD) → (b : Ref sig .tc) → Buf (Elt F) ((c : Thread nD τ).loc b) := fun c b => W2 m ρ c b
/-- After the second region: the result array at what that region's write-backs leave. -/
def W3 (c : Dev nD) : Valuation τ sig (Elt F) :=
  Function.update (W2 m ρ c) (Proc.devRef .tc main_v2) ((dat1 (U2 m ρ) c).arrAt 2 cfg1.N)
abbrev U3 : (c : Dev nD) → (b : Ref sig .tc) → Buf (Elt F) ((c : Thread nD τ).loc b) := fun c b => W3 m ρ c b

theorem W2_hidden (c : Dev nD) : W2 m ρ c (Proc.devRef .tc main_v1) = (dat0 (U1 m ρ) c).arrAt 3 cfg0.N := by
  unfold W2; exact Function.update_self ..
theorem W2_of_ne (c : Dev nD) (b : Ref sig .tc) (hb : b ≠ main_v1) : W2 m ρ c (Proc.devRef .tc b) = W1 m ρ c (Proc.devRef .tc b) := by
  unfold W2
  exact Function.update_of_ne (StableHlo.devRef_ne_of_ne hb : (Proc.devRef .tc b : DevRef τ sig) ≠ Proc.devRef .tc main_v1) _ _
theorem W3_result (c : Dev nD) : W3 m ρ c (Proc.devRef .tc main_v2) = (dat1 (U2 m ρ) c).arrAt 2 cfg1.N := by
  unfold W3; exact Function.update_self ..
theorem W3_of_ne (c : Dev nD) (b : Ref sig .tc) (hb : b ≠ main_v2) : W3 m ρ c (Proc.devRef .tc b) = W2 m ρ c (Proc.devRef .tc b) := by
  unfold W3
  exact Function.update_of_ne (StableHlo.devRef_ne_of_ne hb : (Proc.devRef .tc b : DevRef τ sig) ≠ Proc.devRef .tc main_v2) _ _

/-- At the first region's exit each of its arrays holds what the pipeline leaves: the inputs as entered, the hidden
    array its write-backs. -/
theorem hG0 (c : Dev nD) (w : Fin cfg0.W) : (dat0 (U1 m ρ) c).arrAt w cfg0.N = U2 m ρ c (Pipeline.arrRef spec0 w) :=
  match w with
  | ⟨0, _⟩ => (((dat0 (U1 m ρ) c).arrAt_in 0 rfl _).trans (A_eq0 (U1 m ρ) c 0)).trans (W2_of_ne m ρ c main_v0 (by decide)).symm
  | ⟨1, _⟩ => (((dat0 (U1 m ρ) c).arrAt_in 1 rfl _).trans (A_eq0 (U1 m ρ) c 1)).trans (W2_of_ne m ρ c main_arg1 (by decide)).symm
  | ⟨2, _⟩ => (((dat0 (U1 m ρ) c).arrAt_in 2 rfl _).trans (A_eq0 (U1 m ρ) c 2)).trans (W2_of_ne m ρ c main_arg1 (by decide)).symm
  | ⟨3, _⟩ => (W2_hidden m ρ c).symm
theorem hrest0 (c : Dev nD) : ∀ b, b ∉ Finset.univ.image (Pipeline.arrRef spec0) → U2 m ρ c b = U1 m ρ c b :=
  fun b hb => W2_of_ne m ρ c b fun e => hb (Finset.mem_image.mpr ⟨3, Finset.mem_univ _, e.symm⟩)

/-- The same at the second region's exit. -/
theorem hG1 (c : Dev nD) (w : Fin cfg1.W) : (dat1 (U2 m ρ) c).arrAt w cfg1.N = U3 m ρ c (Pipeline.arrRef spec1 w) :=
  match w with
  | ⟨0, _⟩ => (((dat1 (U2 m ρ) c).arrAt_in 0 rfl _).trans (A_eq1 (U2 m ρ) c 0)).trans (W3_of_ne m ρ c main_v1 (by decide)).symm
  | ⟨1, _⟩ => (((dat1 (U2 m ρ) c).arrAt_in 1 rfl _).trans (A_eq1 (U2 m ρ) c 1)).trans (W3_of_ne m ρ c main_arg2 (by decide)).symm
  | ⟨2, _⟩ => (W3_result m ρ c).symm
theorem hrest1 (c : Dev nD) : ∀ b, b ∉ Finset.univ.image (Pipeline.arrRef spec1) → U3 m ρ c b = U2 m ρ c b :=
  fun b hb => W3_of_ne m ρ c b fun e => hb (Finset.mem_image.mpr ⟨2, Finset.mem_univ _, e.symm⟩)

/-- No item writes an argument: its buffer at the end is the launch memory's. -/
theorem hostOps0_keeps (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact StableHlo.devRef_ne_of_ne hb))
theorem W3_arg (c : Dev nD) (b : Ref sig .tc) (h0 : b ≠ main_v0) (h1 : b ≠ main_v1) (h2 : b ≠ main_v2) :
    W3 m ρ c (Proc.devRef .tc b) = m ((c : Thread nD τ).loc b) :=
  (W3_of_ne m ρ c b h2).trans <| (W2_of_ne m ρ c b h1).trans <| (hostOps0_keeps m ρ c b h0).trans rfl

/-! ## The proof data family and the thread state -/

/-- No pallas_call has a prefetched table. -/
abbrev tabs : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabs p) c
  | ⟨0, _⟩ => fun c => dat0 (U1 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_alloc_none : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) tabs (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := arrays_of_unscopedBufs0 (F := F) c (dat0 (U1 m ρ) c) rfl (U1 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arrays0 (F := F) c (dat0 (U1 m ρ) c) rfl (U1 m ρ c) (U2 m ρ c)
      ((dat0 (U1 m ρ) c).arrAt · cfg0.N) (hG0 m ρ c) (hrest0 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) tabs (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hG1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) tabs (pdats m ρ) () defs₀ 𝒱₀ L lv) :=
  [ .host (hseg hostOps0 hostOps0_sub hostOps0_alloc_none (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    with the result array at what the second region's write-backs leave and the three arguments as launched. -/
theorem run_main : θ_run defs (onTc (τ := τ) (main (F := F))) ⟨m, fun _ => 0, ρ⟩ (fun r => ∀ c : Dev nD,
      r.2.mem ((c.tc : Thread nD τ).loc main_v2) = (dat1 (U2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) tabs (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v2 (by decide))).trans (W3_result m ρ c),
       (h c _ (mem_uc main_arg0 (by decide))).trans (W3_arg m ρ c main_arg0 (by decide) (by decide) (by decide)),
       (h c _ (mem_uc main_arg1 (by decide))).trans (W3_arg m ρ c main_arg1 (by decide) (by decide) (by decide)),
       (h c _ (mem_uc main_arg2 (by decide))).trans (W3_arg m ρ c main_arg2 (by decide) (by decide) (by decide))⟩)

end Cert.KernelIdeal.Hand

end
-- ==== Proof.Spec.lean ====
/-
  The gated feed-forward layer as ONE function of its three argument arrays, over the extended reals.

  For a token row `r`, the fused weight `w : [4096, 28672]` holds two projections side by side: columns
  `0 … 14335` are the gate's, columns `14336 … 28671` the up projection's. With
  `proj r j = ∑ k, x[r, k] · w[k, j]`, the hidden entry is
  `hid r n = (g · σ(g)) · u` where `g = proj r n`, `u = proj r (14336 + n)` and `σ` is the logistic function,
  and the layer's result is `out[r, c] = ∑ n, hid r n · d[n, c]` for the down projection `d : [14336, 4096]`.
-/
import Idealize.ShloMosaic.PureOps.Ideal
import Idealize.ShloMosaic.Lib.ValueIdx

noncomputable section

namespace Cert.Spec

open Idealize.ShloMosaic Idealize.ShloMosaic.ValueIdx

/-- Column `n` of the gate half of the fused weight. -/
def gcol (n : Fin 14336) : Fin 28672 := ⟨n.val, by have := n.isLt; omega⟩
/-- Column `n` of the up half of the fused weight: `14336 + n`. -/
def ucol (n : Fin 14336) : Fin 28672 := ⟨14336 + n.val, by have := n.isLt; omega⟩

/-- Row `r` of `x` against column `j` of the fused weight. -/
def proj (x : (⟨2, ![512, 4096]⟩ : Shape).Idx → EReal) (w : (⟨2, ![4096, 28672]⟩ : Shape).Idx → EReal)
    (r : Fin 512) (j : Fin 28672) : EReal :=
  ∑ k : Fin 4096, x (ix2 r k) * w (ix2 k j)

/-- `g · σ(g)`, the sigmoid-weighted unit. -/
def silu (g : EReal) : EReal := g * Ideal.logistic g

/-- The hidden activation: the gated product of the two projections. -/
def hid (x : (⟨2, ![512, 4096]⟩ : Shape).Idx → EReal) (w : (⟨2, ![4096, 28672]⟩ : Shape).Idx → EReal)
    (r : Fin 512) (n : Fin 14336) : EReal :=
  silu (proj x w r (gcol n)) * proj x w r (ucol n)

/-- The layer's result at an index: the hidden row against a column of the down projection. -/
def out (x : (⟨2, ![512, 4096]⟩ : Shape).Idx → EReal) (w : (⟨2, ![4096, 28672]⟩ : Shape).Idx → EReal)
    (d : (⟨2, ![14336, 4096]⟩ : Shape).Idx → EReal) (i : (⟨2, ![512, 4096]⟩ : Shape).Idx) : EReal :=
  ∑ n : Fin 14336, hid x w (i 0) n * d (ix2 n (i 1))

end Cert.Spec

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Payloads.lean ====
/-
  The arithmetic of the two kernel bodies, read at an index, over the extended reals.

  The first body forms, for a block of 256 hidden columns, the two projections of the token rows against the
  gate's and the up projection's column blocks, and stores `(g · σ(g)) · u`. The second body adds to the
  accumulator block the product of a block of hidden columns with the matching rows of the down projection;
  on the first block of the reduction it first clears the accumulator. Over the extended reals a change of
  float format is the identity, so every entry is the exact sum of products.
-/
import proofs.«151279_j678604833229_2_alg».proof.Proof.Gen.KernelIdeal.Skeleton
import proofs.«151279_j678604833229_2_alg».proof.Proof.Spec
import proofs.«151279_j678604833229_2_alg».proof.Proof.LibRowLayers
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx

variable [Cert.KernelIdeal.Facts]

/-- The first body's dimension numbers say "rows times columns", contracting 4096 positions. -/
theorem rtc0 : Cert.RowLayers.RowsTimesCols (a := 512) (K := 4096) (b := 256) dot_S512x4096_S4096x256_S512x256_1_0_0_1_n_n where
  rank := rfl
  size := rfl
  lhs0 := fun j q => by
    unfold DotDims.lhsIdx
    rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
    rfl
  lhs1 := fun j q => dot_S512x4096_S4096x256_S512x256_1_0_0_1_n_n.lhsIdx_val_of_single rfl j q
  rhs0 := fun j q => dot_S512x4096_S4096x256_S512x256_1_0_0_1_n_n.rhsIdx_val_of_single rfl j q
  rhs1 := fun j q => by
    unfold DotDims.rhsIdx
    rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
    rfl

/-- The second body's dimension numbers say "rows times columns", contracting 256 positions. -/
theorem rtc1 : Cert.RowLayers.RowsTimesCols (a := 512) (K := 256) (b := 2048) dot_S512x256_S256x2048_S512x2048_1_0_0_1_n_n where
  rank := rfl
  size := rfl
  lhs0 := fun j q => by
    unfold DotDims.lhsIdx
    rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
    rfl
  lhs1 := fun j q => dot_S512x256_S256x2048_S512x2048_1_0_0_1_n_n.lhsIdx_val_of_single rfl j q
  rhs0 := fun j q => dot_S512x256_S256x2048_S512x2048_1_0_0_1_n_n.rhsIdx_val_of_single rfl j q
  rhs1 := fun j q => by
    unfold DotDims.rhsIdx
    rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
    rfl

/-- A product into a zero accumulator, read at an index: the plain sum of products. -/
theorem matmul_zero_at {a K b : ℕ} {d : DotDims ⟨2, ![a, K]⟩ ⟨2, ![K, b]⟩ ⟨2, ![a, b]⟩} {φ₁ φ₂ : FTy}
    (H : Cert.RowLayers.RowsTimesCols d) (prec : Option ContractPrecision)
    (lhs : FVec Ideal ⟨2, ![a, K]⟩ φ₁) (rhs : FVec Ideal ⟨2, ![K, b]⟩ φ₂) (p : Fin a) (q : Fin b) :
    matmul d prec lhs rhs (constant (F := Ideal) ⟨2, ![a, b]⟩ .f32 0x00000000#32) (ix2 p q)
      = ∑ k : Fin K, lhs (ix2 p k) * rhs (ix2 k q) :=
  congrFun (Cert.RowLayers.rowOf_matmul_zero H prec lhs rhs p) q

/-- The first body at an index: the sigmoid-weighted gate projection times the up projection. -/
theorem pay0_apply (x : Vec Ideal S512x4096 .bf16) (wg wu : Vec Ideal S4096x256 .f32) (r : Fin 512) (q : Fin 256) :
    k0_pay1 (F := Ideal) x wg wu (ix2 r q)
      = Cert.Spec.silu (∑ k : Fin 4096, x (ix2 r k) * wg (ix2 k q)) * (∑ k : Fin 4096, x (ix2 r k) * wu (ix2 k q)) := by
  unfold k0_pay1
  rw [shapeCast_self]
  have eg := matmul_zero_at (φ₁ := .bf16) rtc0 none x (truncf .bf16 wg Facts₀.bitsLt_bf16_f32 : FVec Ideal S4096x256 .bf16) r q
  have eu := matmul_zero_at (φ₁ := .bf16) rtc0 none x (truncf .bf16 wu Facts₀.bitsLt_bf16_f32 : FVec Ideal S4096x256 .bf16) r q
  exact congrArg₂ (fun g u : EReal => (g * Ideal.logistic g) * u) eg eu

/-- The cleared accumulator at an index. -/
theorem pay1_apply (i : S512x2048.Idx) : k1_pay1 (F := Ideal) i = 0 :=
  Ideal.ofBits_zero_f32

/-- The second body at an index: the accumulator plus the block's sum of products. -/
theorem pay2_apply (h : Vec Ideal S512x256 .bf16) (wd : Vec Ideal S256x2048 .f32) (acc : Vec Ideal S512x2048 .f32) (r : Fin 512) (q : Fin 2048) :
    k1_pay2 (F := Ideal) h wd acc (ix2 r q) = acc (ix2 r q) + ∑ n : Fin 256, h (ix2 r n) * wd (ix2 n q) := by
  unfold k1_pay2
  rw [shapeCast_self, shapeCast_self]
  have e := matmul_zero_at (φ₁ := .bf16) rtc1 none h (truncf .bf16 wd Facts₀.bitsLt_bf16_f32 : FVec Ideal S256x2048 .bf16) r q
  exact congrArg (fun t : EReal => acc (ix2 r q) + t) e

end Cert.KernelIdeal.Pay

end
-- ==== Proof.KI.HidValue.lean ====
/-
  The hidden array the first kernel region leaves, as one function of the arrays the region finds.

  The region's grid has 56 points. At point `t` the body reads the whole activation array `x`, the columns
  `256 t … 256 t + 255` of the fused weight `w` (gate columns) and its columns `14336 + 256 t … 14336 + 256 t + 255`
  (up columns), and writes columns `256 t … 256 t + 255` of the hidden array: entry `(r, q)` of the block is
  `(g · σ(g)) · u` with `g = ∑ k, x[r, k] · w[k, 256 t + q]` and `u = ∑ k, x[r, k] · w[k, 14336 + 256 t + q]`,
  which is the hidden activation of row `r`, column `n = 256 t + q`. Every column `n < 14336` lies in exactly the
  block `n / 256`, so the 56 blocks tile the array and the array ends holding the hidden activation everywhere.
-/
import proofs.«151279_j678604833229_2_alg».proof.Proof.KI.Region0
import proofs.«151279_j678604833229_2_alg».proof.Proof.Payloads
import proofs.«151279_j678604833229_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps, decided over the 56 grid points -/

theorem hz : (![0, 0] : Fin 2 → Nat) = fun _ => 0 := funext fun a => by fin_cases a <;> rfl

/-- At point `t` the activation window sits at block `(0, 0)`, the gate window at column block `t`, the up window at
    column block `56 + t`, and the hidden window at column block `t`. -/
theorem idx_facts : ∀ t : Fin cfg0.N,
    win0_0.index t (0 : Fin 2) = 0 ∧ win0_0.index t (1 : Fin 2) = 0
  ∧ win0_1.index t (0 : Fin 2) = 0 ∧ win0_1.index t (1 : Fin 2) = t.val
  ∧ win0_2.index t (0 : Fin 2) = 0 ∧ win0_2.index t (1 : Fin 2) = 56 + t.val
  ∧ win0_3.index t (0 : Fin 2) = 0 ∧ win0_3.index t (1 : Fin 2) = t.val :=
  (by decide +kernel : ∀ t : Fin grid0.N, _)

/-- A grid point's number is below 56. -/
theorem t_lt (t : Fin cfg0.N) : t.val < 56 := by
  have hN : cfg0.N = 56 := N_0
  have := t.isLt
  omega

/-! ## One block of hidden columns, over variables -/

/-- When `x` is the activation array, `wg` the fused weight's columns `256 tv + q` and `wu` its columns
    `14336 + 256 tv + q`, the body's result at `y` is the hidden activation at row `y 0`, column `256 tv + y 1`. -/
theorem block_point (x : Vec Ideal S512x4096 .bf16) (wg wu : Vec Ideal S4096x256 .f32)
    (X : S512x4096.Idx → EReal) (W : S4096x28672.Idx → EReal) (tv : ℕ) (ht : tv < 56)
    (hx : ∀ (r : Fin 512) (k : Fin 4096), x (ix2 r k) = X (ix2 r k))
    (hg : ∀ (k : Fin 4096) (q : Fin 256), wg (ix2 k q) = W (ix2 k (Cert.Spec.gcol ⟨256 * tv + q.val, by have := q.isLt; omega⟩)))
    (hu : ∀ (k : Fin 4096) (q : Fin 256), wu (ix2 k q) = W (ix2 k (Cert.Spec.ucol ⟨256 * tv + q.val, by have := q.isLt; omega⟩)))
    (y : S512x256.Idx) (i : S512x14336.Idx) (hi0 : (i 0).val = (y 0).val) (hi1 : (i 1).val = 256 * tv + (y 1).val) :
    k0_pay1 (F := Ideal) x wg wu y = Cert.Spec.hid X W (i 0) (i 1) := by
  obtain ⟨r, q, rfl⟩ : ∃ (r : Fin 512) (q : Fin 256), y = ix2 r q := ⟨y 0, y 1, eq_ix2 y⟩
  have e0 : i 0 = r := Fin.ext hi0
  have hq : 256 * tv + q.val < 14336 := by have := q.isLt; omega
  have e1 : i 1 = (⟨256 * tv + q.val, hq⟩ : Fin 14336) := Fin.ext hi1
  rw [Cert.KernelIdeal.Pay.pay0_apply, e0, e1]
  unfold Cert.Spec.hid Cert.Spec.proj
  simp only [hx, hg, hu]

/-! ## The three input blocks at a point, read off the arrays -/

/-- The activation window's block is the whole activation array. -/
theorem iblk0_x (c : Dev nD) (t : Fin cfg0.N) (r : Fin 512) (k : Fin 4096) :
    (iblk0 V c 0 t : Vec Ideal S512x4096 .bf16) (ix2 r k) = (V c main_v0 : S512x4096.Idx → EReal) (ix2 r k) := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * r.val = r.val; rw [e0]; omega
  | ⟨1, _⟩ => show win0_0.index t (1 : Fin 2) * 4096 + 1 * k.val = k.val; rw [e1]; omega

/-- The gate window's block at point `t` is columns `256 t … 256 t + 255` of the fused weight. -/
theorem iblk0_g (c : Dev nD) (t : Fin cfg0.N) (k : Fin 4096) (q : Fin 256) :
    (iblk0 V c 1 t : Vec Ideal S4096x256 .f32) (ix2 k q)
      = (V c main_arg1 : S4096x28672.Idx → EReal) (ix2 k (Cert.Spec.gcol ⟨256 * t.val + q.val, by have := q.isLt; have := t_lt t; omega⟩)) := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t (0 : Fin 2) * 4096 + 1 * k.val = k.val; rw [e2]; omega
  | ⟨1, _⟩ => show win0_1.index t (1 : Fin 2) * 256 + 1 * q.val = 256 * t.val + q.val; rw [e3]; omega

/-- The up window's block at point `t` is columns `14336 + 256 t … 14336 + 256 t + 255` of the fused weight. -/
theorem iblk0_u (c : Dev nD) (t : Fin cfg0.N) (k : Fin 4096) (q : Fin 256) :
    (iblk0 V c 2 t : Vec Ideal S4096x256 .f32) (ix2 k q)
      = (V c main_arg1 : S4096x28672.Idx → EReal) (ix2 k (Cert.Spec.ucol ⟨256 * t.val + q.val, by have := q.isLt; have := t_lt t; omega⟩)) := by
  obtain ⟨-, -, -, -, e4, e5, -⟩ := idx_facts t
  unfold iblk0
  rw [View.read_apply]
  show V c main_arg1 _ = V c main_arg1 _
  congr 1
  funext a
  apply Fin.ext
  match a with
  | ⟨0, _⟩ => show win0_2.index t (0 : Fin 2) * 4096 + 1 * k.val = k.val; rw [e4]; omega
  | ⟨1, _⟩ => show win0_2.index t (1 : Fin 2) * 256 + 1 * q.val = 14336 + (256 * t.val + q.val); rw [e5]; omega

/-! ## What a point writes back, and the whole array -/

/-- The hidden array as one function of the arrays the region finds: entry `(r, n)` is the gated product of the two
    projections of row `r` on the gate column `n` and on the up column `14336 + n`. -/
abbrev hidArr (c : Dev nD) : S512x14336.Idx → EReal :=
  fun i => Cert.Spec.hid (V c main_v0) (V c main_arg1) (i 0) (i 1)

/-- Point `t` writes back block `t` of the hidden array. -/
theorem flushed_eq (c : Dev nD) (t : Fin cfg0.N) :
    (dat0 (F := Ideal) V c).flushed 3 t = ((cfg0.win 3).blk t).view.read (Elt Ideal) (hidArr V c) := by
  show (cfg0.win 3).cut (grid0.coords t) ((dat0 V c).after 3 t) = _
  rw [after0_3]
  unfold out0_3
  rw [View.canon_unit_zero hz]
  simp only [View.ld_unit_zero (S := S512x4096) hz, View.ld_unit_zero (S := S4096x256) hz]
  obtain ⟨-, -, -, -, -, -, e6, e7⟩ := idx_facts t
  have htN : t.val < 56 := t_lt t
  funext j
  rw [View.read_apply]
  refine block_point (iblk0 V c 0 t) (iblk0 V c 1 t) (iblk0 V c 2 t) (V c main_v0) (V c main_arg1) t.val htN
    (iblk0_x V c t) (iblk0_g V c t) (iblk0_u V c t) _ _ ?_ ?_
  · show win0_3.index t (0 : Fin 2) * 512 + 1 * (j 0).val = (j 0).val; rw [e6]; omega
  · show win0_3.index t (1 : Fin 2) * 256 + 1 * (j 1).val = 256 * t.val + (j 1).val; rw [e7]; omega

/-- An index of the hidden array is in point `t`'s block iff each coordinate is in the block's range on its axis. -/
theorem mem_blk (t : Fin cfg0.N) (i : S512x14336.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- The 56 column blocks tile the hidden array: column `n` is in block `n / 256`. -/
theorem cover (i : S512x14336.Idx) :
    ∃ t : Fin cfg0.N, (cfg0.win 3).flush t = true ∧ i ∈ ((cfg0.win 3).blk t).view.set := by
  have hN : grid0.N = 56 := N_0
  have hi0 : (i 0).val < 512 := (i 0).isLt
  have hi1 : (i 1).val < 14336 := (i 1).isLt
  let t : Fin cfg0.N := ⟨(i 1).val / 256, by show (i 1).val / 256 < grid0.N; omega⟩
  obtain ⟨-, -, -, -, -, -, e6, e7⟩ := idx_facts t
  have e7' : win0_3.index t (1 : Fin 2) = (i 1).val / 256 := e7
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 256 ≤ (i 1).val ∧ (i 1).val < win0_3.index t (1 : Fin 2) * 256 + 256; rw [e7']; omega

/-- After the region's last point the hidden array holds, at `(r, n)`, the hidden activation of row `r`, column `n`. -/
theorem hidden_eq (c : Dev nD) :
    (dat0 (F := Ideal) V c).arrAt 3 cfg0.N = fun i => Cert.Spec.hid (V c main_v0) (V c main_arg1) (i 0) (i 1) :=
  (dat0 (F := Ideal) V c).arrAt_eq_of_cover 3 (hidArr V c) (fun t _ => flushed_eq V c t) cover

end Cert.KernelIdeal.Val

end
-- ==== Proof.BlockSum.lean ====
/-
  Regrouping a sum of 14336 extended reals into 56 blocks of 256, and reading a running total as a sum.

  The index `256 * k + n` with `k < 56`, `n < 256` runs over `0 … 14335` exactly once, so summing block by
  block is summing everything. Addition of extended reals is commutative and associative with unit `0`, so no
  finiteness is needed anywhere.
-/
import Idealize.ShloMosaic.PureOps.Ideal

namespace Cert.BlockSum

/-- Summing 56 blocks of 256 consecutive entries is summing all 14336 entries. -/
theorem sum_blocks (f : Fin 14336 → EReal) :
    (∑ k : Fin 56, ∑ n : Fin 256, f ⟨256 * k.val + n.val, by have := k.isLt; have := n.isLt; omega⟩) = ∑ n : Fin 14336, f n := by
  rw [← Fintype.sum_prod_type']
  refine Fintype.sum_equiv (finProdFinEquiv (m := 56) (n := 256)) _ _ ?_
  rintro ⟨k, n⟩
  refine congrArg f (Fin.ext ?_)
  simp [finProdFinEquiv, Nat.add_comm]

/-- A running total that starts at `0 + S 0` and adds `S (k + 1)` at step `k + 1` is the sum of the first terms. -/
theorem fold_eq (S acc : ℕ → EReal) (h0 : acc 0 = 0 + S 0) (hs : ∀ k, acc (k + 1) = acc k + S (k + 1)) (n : ℕ) :
    acc n = ∑ k ∈ Finset.range (n + 1), S k := by
  induction n with
  | zero => simp [h0]
  | succ m ih => rw [hs, ih, Finset.sum_range_succ _ (m + 1)]

/-- A sum over the first `N` naturals is the sum over `Fin N` of the values. -/
theorem sum_range_fin (S : ℕ → EReal) (N : ℕ) : (∑ k ∈ Finset.range N, S k) = ∑ k : Fin N, S k.val :=
  (Fin.sum_univ_eq_sum_range S N).symm

end Cert.BlockSum
-- ==== Proof.KI.AccSum.lean ====
/-
  The down projection's accumulation, read as a sum.

  The second kernel visits 112 grid points `t = 56 · j + k`: `j < 2` is the half of the output columns, `k < 56`
  the reduction step. At step `k = 0` the output block is cleared and then receives the first block's product;
  at every later step it receives what the previous point left plus the next block's product. By induction on
  `k`, after step `k` the block holds the sum of the first `k + 1` products; after step `55` it holds all 56.
  Addition of extended reals is associative with unit `0`, so no finiteness is needed.
-/
import proofs.«151279_j678604833229_2_alg».proof.Proof.Payloads
import proofs.«151279_j678604833229_2_alg».proof.Proof.BlockSum

noncomputable section

namespace Cert.KernelIdeal.Val

open Cert.KernelIdeal Cert.KernelIdeal.Gen Cert.KernelIdeal.Pay Idealize.ShloMosaic Idealize.ShloMosaic.ValueIdx

variable [Cert.KernelIdeal.Facts]

/-- A family indexed by a bounded natural depends only on the natural. -/
theorem bounded_congr {α : Type} {N : ℕ} (f : (n : ℕ) → n < N → α) {a b : ℕ} (e : a = b) (ha : a < N) (hb : b < N) :
    f a ha = f b hb := by
  subst e
  rfl

/-- The product of the blocks of grid point `56 · j + k` at entry `(r, q)`, and `0` beyond the grid. -/
def term (hb : Fin 112 → Vec Ideal S512x256 .bf16) (wb : Fin 112 → Vec Ideal S256x2048 .f32) (j : Fin 2) (r : Fin 512) (q : Fin 2048)
    (k : ℕ) : EReal :=
  if h : 56 * j.val + k < 112 then ∑ n : Fin 256, hb ⟨56 * j.val + k, h⟩ (ix2 r n) * wb ⟨56 * j.val + k, h⟩ (ix2 n q) else 0

theorem term_of_lt (hb : Fin 112 → Vec Ideal S512x256 .bf16) (wb : Fin 112 → Vec Ideal S256x2048 .f32) (j : Fin 2) (r : Fin 512) (q : Fin 2048)
    (k : ℕ) (h : 56 * j.val + k < 112) :
    term hb wb j r q k = ∑ n : Fin 256, hb ⟨56 * j.val + k, h⟩ (ix2 r n) * wb ⟨56 * j.val + k, h⟩ (ix2 n q) :=
  dif_pos h

/-- After reduction step `k` of column half `j` the output block holds the first `k + 1` products' sum. -/
theorem acc_prefix (hb : Fin 112 → Vec Ideal S512x256 .bf16) (wb : Fin 112 → Vec Ideal S256x2048 .f32)
    (outs : (n : ℕ) → n < 112 → Vec Ideal S512x2048 .f32)
    (hreset : ∀ t : Fin 112, t.val % 56 = 0 → outs t.val t.isLt = k1_pay2 (F := Ideal) (hb t) (wb t) (k1_pay1 (F := Ideal)))
    (hacc : ∀ t : Fin 112, ¬ t.val % 56 = 0 → outs t.val t.isLt = k1_pay2 (F := Ideal) (hb t) (wb t) (outs (t.val - 1) (Nat.lt_of_le_of_lt (Nat.sub_le _ _) t.isLt)))
    (j : Fin 2) (r : Fin 512) (q : Fin 2048) (k : ℕ) (hk : k < 56) :
    outs (56 * j.val + k) (by have := j.isLt; omega) (ix2 r q) = ∑ k' ∈ Finset.range (k + 1), term hb wb j r q k' := by
  have hj := j.isLt
  induction k with
  | zero =>
    have ht : 56 * j.val + 0 < 112 := by omega
    have e := hreset ⟨56 * j.val + 0, ht⟩ (show (56 * j.val + 0) % 56 = 0 by omega)
    refine (congrFun e (ix2 r q)).trans ?_
    rw [pay2_apply, pay1_apply, zero_add, Finset.sum_range_one, term_of_lt hb wb j r q 0 ht]
  | succ m ih =>
    have ht : 56 * j.val + (m + 1) < 112 := by omega
    have e := hacc ⟨56 * j.val + (m + 1), ht⟩ (show ¬ (56 * j.val + (m + 1)) % 56 = 0 by omega)
    refine (congrFun e (ix2 r q)).trans ?_
    rw [pay2_apply, Finset.sum_range_succ _ (m + 1), term_of_lt hb wb j r q (m + 1) ht]
    refine congrArg (fun t : EReal => t + _) ?_
    refine Eq.trans ?_ (ih (by omega))
    exact congrFun (bounded_congr outs (show 56 * j.val + (m + 1) - 1 = 56 * j.val + m by omega) _ _) (ix2 r q)

/-- After the last reduction step the output block of column half `j` holds the sum of all 56 block products. -/
theorem acc_sum (hb : Fin 112 → Vec Ideal S512x256 .bf16) (wb : Fin 112 → Vec Ideal S256x2048 .f32)
    (outs : (n : ℕ) → n < 112 → Vec Ideal S512x2048 .f32)
    (hreset : ∀ t : Fin 112, t.val % 56 = 0 → outs t.val t.isLt = k1_pay2 (F := Ideal) (hb t) (wb t) (k1_pay1 (F := Ideal)))
    (hacc : ∀ t : Fin 112, ¬ t.val % 56 = 0 → outs t.val t.isLt = k1_pay2 (F := Ideal) (hb t) (wb t) (outs (t.val - 1) (Nat.lt_of_le_of_lt (Nat.sub_le _ _) t.isLt)))
    (j : Fin 2) (r : Fin 512) (q : Fin 2048) :
    outs (56 * j.val + 55) (by have := j.isLt; omega) (ix2 r q)
      = ∑ k : Fin 56, ∑ n : Fin 256, hb ⟨56 * j.val + k.val, by have := j.isLt; have := k.isLt; omega⟩ (ix2 r n) * wb ⟨56 * j.val + k.val, by have := j.isLt; have := k.isLt; omega⟩ (ix2 n q) := by
  have hj := j.isLt
  have h55 : outs (56 * j.val + 55) (by omega) (ix2 r q) = ∑ k' ∈ Finset.range 56, term hb wb j r q k' :=
    acc_prefix hb wb outs hreset hacc j r q 55 (by omega)
  refine h55.trans ?_
  rw [Cert.BlockSum.sum_range_fin]
  refine Finset.sum_congr rfl fun k _ => ?_
  exact term_of_lt hb wb j r q k.val (by have := k.isLt; omega)

end Cert.KernelIdeal.Val

end
-- ==== Proof.KI.DownValue.lean ====
/- The array the down projection's region leaves, as one function of the arrays it is entered with, over the
   extended reals: entry (r, cc) of the [512, 4096] result is the inner product, over all 14336 hidden units, of
   row r of the hidden array with column cc of the down weight. Grid point t = 56 · j + k reads column block k of
   the hidden array and block (k, j) of the weight; the output block of column half j accumulates the 56 block
   products and is written back after the last; the two written blocks tile the result. -/
import proofs.«151279_j678604833229_2_alg».proof.Proof.KI.Region1
import proofs.«151279_j678604833229_2_alg».proof.Proof.KI.AccSum
import proofs.«151279_j678604833229_2_alg».proof.Proof.BlockSum
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product of two extended reals, with the type of both factors stated (the arrays' element types are extended
    reals only after the buffers' types are unfolded). -/
local notation:70 a:70 " ⋆ " b:71 => @HMul.hMul EReal EReal EReal instHMul a b

/-! ## The printed index maps, in closed form over the grid -/

/-- At grid point `t = 56 · j + k`: the hidden block is column block `k`, the weight block is block `(k, j)`, and
    the output block is column half `j` — decided over the grid's 112 points. -/
theorem down_idx_facts : ∀ t : Fin cfg1.N, win1_0.index t (0 : Fin 2) = 0 ∧ win1_0.index t (1 : Fin 2) = t.val % 56
    ∧ win1_1.index t (0 : Fin 2) = t.val % 56 ∧ win1_1.index t (1 : Fin 2) = t.val / 56
    ∧ win1_2.index t (0 : Fin 2) = 0 ∧ win1_2.index t (1 : Fin 2) = t.val / 56 :=
  (by decide +kernel : ∀ t : Fin grid1.N, win1_0.index t (0 : Fin 2) = 0 ∧ win1_0.index t (1 : Fin 2) = t.val % 56
    ∧ win1_1.index t (0 : Fin 2) = t.val % 56 ∧ win1_1.index t (1 : Fin 2) = t.val / 56
    ∧ win1_2.index t (0 : Fin 2) = 0 ∧ win1_2.index t (1 : Fin 2) = t.val / 56)

/-! ## The blocks, read at explicit coordinates -/

/-- The hidden block at point `t` (reduction step `kk`): entry `(r, n)` is entry `(r, 256 · kk + n)` of the hidden array. -/
theorem blk0 (c : Dev nD) (t : Fin cfg1.N) (kk : ℕ) (hk : t.val % 56 = kk) (r : Fin 512) (n : Fin 256)
    (hb0 : 256 * kk + n.val < 14336) :
    (iblk1 V c 0 t : Vec Ideal S512x256 .bf16) (ix2 r n) = V c main_v1 (ix2 r ⟨256 * kk + n.val, hb0⟩) := by
  obtain ⟨e0, e1, -, -, -, -⟩ := down_idx_facts t
  show V c main_v1 (((cfg1.win 0).blk t).view.emb (ix2 r n)) = _
  refine congrArg (V c main_v1) ?_
  funext a
  apply Fin.ext
  match a with
  | ⟨0, _⟩ => show win1_0.index t (0 : Fin 2) * 512 + 1 * r.val = r.val; rw [e0]; omega
  | ⟨1, _⟩ => show win1_0.index t (1 : Fin 2) * 256 + 1 * n.val = 256 * kk + n.val; rw [e1, hk]; omega

/-- The weight block at point `t` (reduction step `kk`, column half `jj`): entry `(n, q)` is entry
    `(256 · kk + n, 2048 · jj + q)` of the down weight. -/
theorem blk1 (c : Dev nD) (t : Fin cfg1.N) (kk jj : ℕ) (hk : t.val % 56 = kk) (hj : t.val / 56 = jj) (n : Fin 256) (q : Fin 2048)
    (hb0 : 256 * kk + n.val < 14336) (hb1 : 2048 * jj + q.val < 4096) :
    (iblk1 V c 1 t : Vec Ideal S256x2048 .f32) (ix2 n q) = V c main_arg2 (ix2 ⟨256 * kk + n.val, hb0⟩ ⟨2048 * jj + q.val, hb1⟩) := by
  obtain ⟨-, -, e2, e3, -, -⟩ := down_idx_facts t
  show V c main_arg2 (((cfg1.win 1).blk t).view.emb (ix2 n q)) = _
  refine congrArg (V c main_arg2) ?_
  funext a
  apply Fin.ext
  match a with
  | ⟨0, _⟩ => show win1_1.index t (0 : Fin 2) * 256 + 1 * n.val = 256 * kk + n.val; rw [e2, hk]; omega
  | ⟨1, _⟩ => show win1_1.index t (1 : Fin 2) * 2048 + 1 * q.val = 2048 * jj + q.val; rw [e3, hj]; omega

/-- Where entry `(r, q)` of the output block at point `t` (column half `jj`) sits in the result array. -/
theorem emb2 (t : Fin cfg1.N) (jj : ℕ) (hj : t.val / 56 = jj) (r : Fin 512) (q : Fin 2048) (hb1 : 2048 * jj + q.val < 4096) :
    ((cfg1.win 2).blk t).view.emb (ix2 r q) = (ix2 r ⟨2048 * jj + q.val, hb1⟩ : S512x4096.Idx) := by
  obtain ⟨-, -, -, -, e4, e5⟩ := down_idx_facts t
  funext a
  apply Fin.ext
  match a with
  | ⟨0, _⟩ => show win1_2.index t (0 : Fin 2) * 512 + 1 * r.val = r.val; rw [e4]; omega
  | ⟨1, _⟩ => show win1_2.index t (1 : Fin 2) * 2048 + 1 * q.val = 2048 * jj + q.val; rw [e5, hj]; omega

/-! ## The result array as one function -/

/-- Entry `(r, cc)` of the result: the hidden row `r` against column `cc` of the down weight. -/
abbrev G (c : Dev nD) : S512x4096.Idx → EReal :=
  fun i => ∑ n : Fin 14336, V c main_v1 (ix2 (i 0) n) ⋆ V c main_arg2 (ix2 n (i 1))

/-- After the last reduction step of column half `j` the output block holds, at `(r, q)`, the whole inner product
    of the hidden row `r` with column `2048 · j + q` of the down weight: the 56 block products regrouped. -/
theorem out_at (c : Dev nD) (j : Fin 2) (r : Fin 512) (q : Fin 2048) (hlt : 56 * j.val + 55 < cfg1.N) (hb1 : 2048 * j.val + q.val < 4096) :
    outsAt1 V c (56 * j.val + 55) hlt (ix2 r q)
      = ∑ n : Fin 14336, V c main_v1 (ix2 r n) ⋆ V c main_arg2 (ix2 n ⟨2048 * j.val + q.val, hb1⟩) := by
  have hj := j.isLt
  have h := acc_sum (fun t => iblk1 V c 0 t) (fun t => iblk1 V c 1 t) (outsAt1 V c)
    (fun t h0 => outsAt1_reset V c t h0) (fun t h0 => outsAt1_acc V c t h0) j r q
  refine h.trans ?_
  rw [← Cert.BlockSum.sum_blocks (fun n' => V c main_v1 (ix2 r n') ⋆ V c main_arg2 (ix2 n' ⟨2048 * j.val + q.val, hb1⟩))]
  refine Finset.sum_congr rfl fun k _ => Finset.sum_congr rfl fun n _ => ?_
  have hk := k.isLt
  have hn := n.isLt
  have hmod : (56 * j.val + k.val) % 56 = k.val := by omega
  have hdiv : (56 * j.val + k.val) / 56 = j.val := by omega
  exact congrArg₂ (fun a b : EReal => a * b)
    (blk0 V c ⟨56 * j.val + k.val, _⟩ k.val hmod r n (by omega))
    (blk1 V c ⟨56 * j.val + k.val, _⟩ k.val j.val hmod hdiv n q (by omega) hb1)

/-! ## From blocks to the array -/

/-- What a write-back point writes is its block of `G`. -/
theorem flushed2_eq (c : Dev nD) (t : Fin cfg1.N) (hf : (cfg1.win 2).flush t = true) :
    (dat1 V c).flushed 2 t = ((cfg1.win 2).blk t).view.read (Elt Ideal) (G V c) := by
  obtain ⟨tv, htlt⟩ := t
  have htlt' : tv < 112 := lt_of_lt_of_eq htlt N_1
  have h55 : tv % 56 = 55 := (flush1_2 ⟨tv, htlt⟩).mp hf
  obtain ⟨j, rfl⟩ : ∃ j, tv = 56 * j + 55 := ⟨tv / 56, by omega⟩
  have hj : j < 2 := by omega
  show (cfg1.win 2).cut (grid1.coords ⟨56 * j + 55, htlt⟩) ((dat1 V c).after 2 ⟨56 * j + 55, htlt⟩) = _
  rw [after1_2]
  refine funext fun (y : S512x2048.Idx) => ?_
  obtain ⟨r, q, rfl⟩ : ∃ (r : Fin 512) (q : Fin 2048), y = ix2 r q := ⟨y 0, y 1, eq_ix2 y⟩
  have hq := q.isLt
  have hdiv : (56 * j + 55) / 56 = j := by omega
  show outsAt1 V c (56 * j + 55) htlt (ix2 r q) = G V c (((cfg1.win 2).blk ⟨56 * j + 55, htlt⟩).view.emb (ix2 r q))
  rw [emb2 ⟨56 * j + 55, htlt⟩ j hdiv r q (by omega)]
  exact out_at V c ⟨j, hj⟩ r q htlt (by show 2048 * j + q.val < 4096; omega)

/-- An index of the result array is in point `t`'s block iff each coordinate is in the block's range on its axis. -/
theorem mem_blk2 (t : Fin cfg1.N) (i : S512x4096.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v2).slice (win1_2.rect t)).set ↔ _
  rw [View.set_slice_whole, Rect.mem_set_unit]
  exact Iff.rfl

/-- Every index of the result array is in the block written back after the last reduction step of its column half. -/
theorem cover2 (i : S512x4096.Idx) : ∃ t : Fin cfg1.N, (cfg1.win 2).flush t = true ∧ i ∈ ((cfg1.win 2).blk t).view.set := by
  have hi0 : (i 0).val < 512 := (i 0).isLt
  have hi1 : (i 1).val < 4096 := (i 1).isLt
  have hN : cfg1.N = 112 := N_1
  have hlt : 56 * ((i 1).val / 2048) + 55 < cfg1.N := by rw [hN]; omega
  refine ⟨⟨56 * ((i 1).val / 2048) + 55, hlt⟩, (flush1_2 _).mpr (by show (56 * ((i 1).val / 2048) + 55) % 56 = 55; omega), ?_⟩
  rw [mem_blk2]
  obtain ⟨-, -, -, -, e4, e5⟩ := down_idx_facts ⟨56 * ((i 1).val / 2048) + 55, hlt⟩
  have e5' : win1_2.index ⟨56 * ((i 1).val / 2048) + 55, hlt⟩ (1 : Fin 2) = (i 1).val / 2048 :=
    e5.trans (by show (56 * ((i 1).val / 2048) + 55) / 56 = _; omega)
  intro a
  match a with
  | ⟨0, _⟩ =>
    show win1_2.index ⟨56 * ((i 1).val / 2048) + 55, hlt⟩ (0 : Fin 2) * 512 ≤ (i 0).val ∧ (i 0).val < win1_2.index ⟨56 * ((i 1).val / 2048) + 55, hlt⟩ (0 : Fin 2) * 512 + 512
    rw [e4]; omega
  | ⟨1, _⟩ =>
    show win1_2.index ⟨56 * ((i 1).val / 2048) + 55, hlt⟩ (1 : Fin 2) * 2048 ≤ (i 1).val ∧ (i 1).val < win1_2.index ⟨56 * ((i 1).val / 2048) + 55, hlt⟩ (1 : Fin 2) * 2048 + 2048
    rw [e5']; omega

/-- THE RESULT ARRAY after the down projection's region: entry `(r, cc)` is the hidden row `r` of the region's
    first operand against column `cc` of the down weight, summed over all 14336 hidden units. -/
theorem down_eq (c : Dev nD) :
    (dat1 (F := Ideal) V c).arrAt 2 cfg1.N
      = (fun i : S512x4096.Idx => ∑ n : Fin 14336, V c main_v1 (ix2 (i 0) n) ⋆ V c main_arg2 (ix2 n (i 1)) : S512x4096.Idx → EReal) :=
  (dat1 V c).arrAt_eq_of_cover 2 (G V c) (flushed2_eq V c) cover2

/-- The same, for any witness of the program's stated side conditions (they are propositions: any two witnesses agree). -/
theorem down_eq' [Cert.KernelIdeal.Facts] (c : Dev nD) :
    (dat1 (F := Ideal) V c).arrAt 2 cfg1.N
      = (fun i : S512x4096.Idx => ∑ n : Fin 14336, V c main_v1 (ix2 (i 0) n) ⋆ V c main_arg2 (ix2 n (i 1)) : S512x4096.Idx → EReal) :=
  down_eq V c

end Cert.KernelIdeal.Val

end
-- ==== Proof.KI.KernelValue.lean ====
/-
  What the idealized kernel's run leaves in the result array, as the layer's one function of the three arguments.

  The second region's array is the hidden array against the down weight, entry by entry; the hidden array it reads
  is what the first region left, the gated product of the two projections of the activations the host operation
  rounded — at the extended reals that rounding is the identity —; and neither region nor the host operation writes
  a weight array, so both regions read the weights as launched.
-/
import proofs.«151279_j678604833229_2_alg».proof.Proof.KI.Run
import proofs.«151279_j678604833229_2_alg».proof.Proof.KI.HidValue
import proofs.«151279_j678604833229_2_alg».proof.Proof.KI.DownValue
import proofs.«151279_j678604833229_2_alg».proof.Proof.Spec
import Idealize.ShloMosaic.Lib.StableHlo.Run

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ) (ρ : Dev nD → PrngReg)

/-- The first region finds the activations as launched: the host operation's change of format is the identity. -/
theorem entry_x (c : Dev nD) :
    (U1 m ρ c main_v0 : S512x4096.Idx → EReal) = m ((c.tc : Thread nD τ).loc main_arg0) := by
  show StableHlo.after hostOps0 (W0 m ρ c) (Proc.devRef .tc main_v0) = _
  after_results
  rfl

/-- It finds the fused weight as launched. -/
theorem entry_w (c : Dev nD) : U1 m ρ c main_arg1 = m ((c.tc : Thread nD τ).loc main_arg1) :=
  (hostOps0_keeps m ρ c main_arg1 (by decide)).trans rfl

/-- The second region finds the down weight as launched, -/
theorem entry_d (c : Dev nD) : U2 m ρ c main_arg2 = m ((c.tc : Thread nD τ).loc main_arg2) :=
  (W2_of_ne m ρ c main_arg2 (by decide)).trans ((hostOps0_keeps m ρ c main_arg2 (by decide)).trans rfl)

/-- and the hidden array as the first region left it: the gated product of the two projections. -/
theorem entry_h (c : Dev nD) :
    (U2 m ρ c main_v1 : S512x14336.Idx → EReal)
      = fun i => Cert.Spec.hid (m ((c.tc : Thread nD τ).loc main_arg0)) (m ((c.tc : Thread nD τ).loc main_arg1)) (i 0) (i 1) := by
  have h := hidden_eq (U1 m ρ) c
  rw [entry_x m ρ c, entry_w m ρ c] at h
  exact (W2_hidden m ρ c).trans h

/-- The result array after the run is the layer's function of the launch arguments. -/
theorem result_eq (c : Dev nD) :
    ((dat1 (F := Ideal) (U2 m ρ) c).arrAt 2 cfg1.N : S512x4096.Idx → EReal)
      = fun i => Cert.Spec.out (m ((c.tc : Thread nD τ).loc main_arg0)) (m ((c.tc : Thread nD τ).loc main_arg1))
          (m ((c.tc : Thread nD τ).loc main_arg2)) i := by
  rw [down_eq (U2 m ρ) c, entry_h m ρ c, entry_d m ρ c]
  rfl

end Cert.KernelIdeal.Val

end
-- ==== Proof.RefValue.lean ====
/-
  The reference program's result, read at an index, is the gated feed-forward layer of the specification.

  The reference multiplies `x` by the fused weight, cuts the product into its gate half (columns `0 … 14335`) and its
  up half (columns `14336 … 28671`), forms `g · (1 / (1 + e^(-g)))` entry by entry on the gate half, multiplies by the
  up half, and multiplies the result by the down projection. Over the extended reals each matrix product is the plain
  sum of products, `1 / (1 + e^(-g))` is the logistic function by definition, and the word `0x3F800000` is `1`.
-/
import proofs.«151279_j678604833229_2_alg».proof.Proof.Gen.ReferenceIdeal.Read
import proofs.«151279_j678604833229_2_alg».proof.Proof.Spec

noncomputable section

namespace Cert.RefBridge

open Idealize.ShloMosaic Idealize.ShloMosaic.ValueIdx Cert.ReferenceIdeal Cert.ReferenceIdeal.Read

/-- The single-precision word of `1.0` denotes `1`. -/
theorem one_word : (FloatOps.ofBits (F := Ideal) .f32 0x3F800000#32) = (1 : EReal) :=
  IdealRules.sign_bit.ideal_onePat .f32

section
variable (x0 : (⟨S512x4096, .f32⟩ : BufTy).Contents (Elt Ideal))
  (x1 : (⟨S4096x28672, .f32⟩ : BufTy).Contents (Elt Ideal))

/-- The first product at row `r`, column `j` is the projection of row `r` of `x` on column `j` of the fused weight. -/
theorem v0_ix (r : Fin 512) (j : Fin 28672) :
    val_main_v0 (F := Ideal) x0 x1 (ix2 r j) = Cert.Spec.proj x0 x1 r j := by
  rw [val_main_v0_apply]
  have hl : ∀ k : Fin 4096, lidx_main_v0 (ix2 r j) k = ix2 r k := fun k =>
    funext fun a => Fin.ext (by match a with | ⟨0, _⟩ => rfl | ⟨1, _⟩ => rfl)
  have hr : ∀ k : Fin 4096, ridx_main_v0 (ix2 r j) k = ix2 k j := fun k =>
    funext fun a => Fin.ext (by match a with | ⟨0, _⟩ => rfl | ⟨1, _⟩ => rfl)
  unfold Cert.Spec.proj
  exact Finset.sum_congr rfl fun k _ => by rw [hl k, hr k]

/-- The gate half at `(r, n)` is the projection on the gate column `n`. -/
theorem v1_ix (r : Fin 512) (n : Fin 14336) :
    val_main_v1 (F := Ideal) x0 x1 (ix2 r n) = Cert.Spec.proj x0 x1 r (Cert.Spec.gcol n) := by
  have h : idx_main_v1 (ix2 r n) = ix2 r (Cert.Spec.gcol n) :=
    funext fun a => Fin.ext (by match a with | ⟨0, _⟩ => rfl | ⟨1, _⟩ => rfl)
  rw [val_main_v1_apply, h, v0_ix]

/-- The up half at `(r, n)` is the projection on the up column `14336 + n`. -/
theorem v2_ix (r : Fin 512) (n : Fin 14336) :
    val_main_v2 (F := Ideal) x0 x1 (ix2 r n) = Cert.Spec.proj x0 x1 r (Cert.Spec.ucol n) := by
  have h : idx_main_v2 (ix2 r n) = ix2 r (Cert.Spec.ucol n) :=
    funext fun a => Fin.ext (by match a with | ⟨0, _⟩ => rfl | ⟨1, _⟩ => rfl)
  rw [val_main_v2_apply, h, v0_ix]

/-- The spelled-out `g · (1 / (1 + e^(-g)))` on the gate half is the sigmoid-weighted unit of the gate projection. -/
theorem v3_ix (r : Fin 512) (n : Fin 14336) :
    val_main_v3 (F := Ideal) x0 x1 (ix2 r n) = Cert.Spec.silu (Cert.Spec.proj x0 x1 r (Cert.Spec.gcol n)) := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply, v1_ix, one_word]
  rfl

/-- The gated product at `(r, n)` is the hidden activation. -/
theorem v4_ix (r : Fin 512) (n : Fin 14336) :
    val_main_v4 (F := Ideal) x0 x1 (ix2 r n) = Cert.Spec.hid x0 x1 r n := by
  rw [val_main_v4_apply, v3_ix, v2_ix]
  rfl

end

/-- The reference's result is the specification's layer, index by index. -/
theorem ref_out
    (x0 : (⟨Cert.ReferenceIdeal.S512x4096, .f32⟩ : BufTy).Contents (Elt Ideal))
    (x1 : (⟨Cert.ReferenceIdeal.S4096x28672, .f32⟩ : BufTy).Contents (Elt Ideal))
    (x2 : (⟨Cert.ReferenceIdeal.S14336x4096, .f32⟩ : BufTy).Contents (Elt Ideal)) :
    Cert.ReferenceIdeal.Read.val_main_v5 (F := Ideal) x0 x1 x2 = fun i => Cert.Spec.out x0 x1 x2 i := by
  funext i
  obtain ⟨r, c, rfl⟩ : ∃ (r : Fin 512) (c : Fin 4096), i = ix2 r c := ⟨i 0, i 1, eq_ix2 i⟩
  rw [val_main_v5_apply]
  have hl : ∀ n : Fin 14336, lidx_main_v5 (ix2 r c) n = ix2 r n := fun n =>
    funext fun a => Fin.ext (by match a with | ⟨0, _⟩ => rfl | ⟨1, _⟩ => rfl)
  have hr : ∀ n : Fin 14336, ridx_main_v5 (ix2 r c) n = ix2 n c := fun n =>
    funext fun a => Fin.ext (by match a with | ⟨0, _⟩ => rfl | ⟨1, _⟩ => rfl)
  show _ = ∑ n : Fin 14336, Cert.Spec.hid x0 x1 r n * x2 (ix2 n c)
  exact Finset.sum_congr rfl fun n _ => by rw [hl n, hr n, v4_ix]

end Cert.RefBridge

end
-- ==== Proof.lean ====
/-
  A gated feed-forward layer, `out = (silu(x·Wg) ⊙ (x·Wu)) · Wd` with `Wg`, `Wu` the two column halves of one fused
  weight array, computed by two kernel regions — the first fills the hidden array one column block at a time, the
  second accumulates the down projection over the hidden dimension's 56 blocks for each half of the output columns —
  against the reference's three whole-array operations (one fused product, the gate, one product).

  At the extended reals the two programs compute one function of the three arguments (`Cert.Spec.out`): rounding to
  the narrow float format is the identity, the kernel's logistic operation and the reference's `1 / (1 + exp (-g))`
  are one function, a matrix product into a zero accumulator is the plain sum of products, and the second region's
  block-by-block accumulation `((0 + S₀) + S₁) + … + S₅₅` of partial sums over 256 hidden entries each is the one sum
  over all 14336 — addition of extended reals is commutative and associative, so no finiteness of the inputs is
  used. The frames (every execution terminates, nothing faults, the arguments end unchanged) come from the same
  run of the two regions, read at the word-level instance for the printed kernel and at the extended reals for its
  idealization; the reference's frame is its run with the result dropped. The idealization rewrote nothing, so
  the fourth conjunct is trivial.
-/
import proofs.«151279_j678604833229_2_alg».proof.Defs
import proofs.«151279_j678604833229_2_alg».proof.Proof.Gen.Kernel
import proofs.«151279_j678604833229_2_alg».proof.Proof.Gen.KernelIdeal
import proofs.«151279_j678604833229_2_alg».proof.Proof.Gen.ReferenceIdeal
import proofs.«151279_j678604833229_2_alg».proof.Proof.Gen.ReferenceIdeal.Run
import proofs.«151279_j678604833229_2_alg».proof.Proof.Gen.ReferenceIdeal.Read
import proofs.«151279_j678604833229_2_alg».proof.Proof.Gen.Pre_finite_inputs
import proofs.«151279_j678604833229_2_alg».proof.Proof.K.Run
import proofs.«151279_j678604833229_2_alg».proof.Proof.KI.Run
import proofs.«151279_j678604833229_2_alg».proof.Proof.KI.KernelValue
import proofs.«151279_j678604833229_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments unchanged: its two regions' run, the result array dropped. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the result array at the layer's one
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun i => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) i, ?_, ?_⟩
  · exact (θ_run Cert.KernelIdeal.defs _ _).mono (fun _ h c => ⟨(h c).1.trans (Cert.KernelIdeal.Val.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.RefBridge.ref_out, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
